-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x256 : Shape := ⟨2, ![2000, 256]⟩
abbrev S2000x1 : Shape := ⟨2, ![2000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 59
  | .vmem => 36
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x256, .f32⟩
  | .hbm, ⟨22, _⟩ => ⟨S50000x256, .f32⟩
  | .hbm, ⟨23, _⟩ => ⟨S50000x256, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .bf16⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x128, .f32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v39) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x256, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000, .f32⟩
  | .hbm, ⟨98, _⟩ => ⟨S800000, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S800000x1, .f32⟩
  | .hbm, ⟨109, _⟩ => ⟨S800000x128, .f32⟩
  | .hbm, ⟨110, _⟩ => ⟨S800000x128, .f32⟩
  | .hbm, ⟨111, _⟩ => ⟨S_, .f32⟩
  | .hbm, ⟨112, _⟩ => ⟨S50000x128, .f32⟩
  | .hbm, ⟨113, _⟩ => ⟨S800000x1, .i32⟩
  | .hbm, ⟨114, _⟩ => ⟨S50000x128, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel program's run with its result named: every weakly fair execution of @main terminates without a fault,
  the result array holds what the fold of the seven segments (three stretches of host operations, four launches)
  leaves in it, and the six argument arrays are unchanged.
-/
import proofs.«152733_j37271726195316_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result array ends at the last segment boundary's contents, the arguments as launched. -/
theorem run : θ_run defs (onTc (τ := τ) (main (F := F))) ⟨m, fun _ => 0, ρ⟩ (fun r => ∀ c : Dev nD,
      r.2.mem ((c.tc : Thread nD τ).loc main_v41) = W7 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v41 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Spec.lean ====
/-
  The mathematics both programs compute, stated once over plain finite index types.

  A graph on 50000 nodes is given by 800000 edges; edge `e` carries a source word `sw e` and a destination word
  `dw e` (32-bit integers). A gather along the node axis reads the node `nodeOf w`: a negative word is first moved
  up by 50000, and the result is clamped into `[0, 49999]`. A scatter-add drops an update whose raw destination word,
  read as a signed integer, is not a node; it lands on node `i` exactly when `Lands w i`.

  With `deg i = 1 + #{e | dw e lands on i}` and `dinv i = deg i ^ (-1/2)`, one graph-convolution layer sends
  features `h` to
      out i c = Σ_{e lands on i} (h W)(src e) c · dinv (src e) · dinv i  +  (h W) i c / deg i  +  b c.
  `layerK` factors `dinv i` out of the sum and writes `1 / deg i` as `dinv i · dinv i`; `layerR` keeps the
  per-edge coefficient `dinv (src e) · dinv (dst e)` and divides by `deg i`. Both are spelt with the exact
  association of additions and products in which the two programs compute them. `outK` / `outR` are the two-layer
  networks (a rectifier after the first layer).
-/
import Idealize.ShloMosaic.PureOps.Ideal
import Idealize.ShloMosaic.PureOps.Ideal.Laws
import Idealize.ShloMosaic.Lib.ValueIdx

noncomputable section

namespace Cert.Gcn

open Idealize.ShloMosaic

/-- The float words `+0.0` and `1.0` read as extended reals. -/
abbrev z32 : EReal := Ideal.ofBits .f32 0x00000000#32
abbrev o32 : EReal := Ideal.ofBits .f32 0x3F800000#32

/-- A negative index word is moved up by the number of nodes (32-bit wrap-around addition). -/
def wrapW (w : BitVec 32) : BitVec 32 := Scalar.select (IntOp.cmpi .slt w 0#32) (IntOp.addi w 50000#32) w
/-- A start index read as a signed integer and clamped into the node range. -/
def clampNode (w : BitVec 32) : Fin 50000 := ⟨min w.toInt.toNat (50000 - 1), by omega⟩
/-- The node a gather along the node axis reads for the index word `w`. -/
def nodeOf (w : BitVec 32) : Fin 50000 := clampNode (wrapW w)
/-- The update carried by destination word `w` lands on node `i`. -/
def Lands (w : BitVec 32) (i : Fin 50000) : Prop := w.toInt = (i.val : Int)

instance (w : BitVec 32) (i : Fin 50000) : Decidable (Lands w i) := by unfold Lands; infer_instance

section Layer

variable (sw dw : Fin 800000 → BitVec 32)

/-- In-degree plus the self-loop. -/
def deg (i : Fin 50000) : EReal :=
  (z32 + ∑ _e ∈ Finset.univ.filter (fun e => Lands (dw e) i), o32) + o32
/-- The inverse square root of the degree. -/
def dinv (i : Fin 50000) : EReal := Ideal.rsqrt (deg dw i)
/-- The dense projection `h W`. -/
def lin {K C : Nat} (h : Fin 50000 → Fin K → EReal) (W : Fin K → Fin C → EReal) (i : Fin 50000) (c : Fin C) : EReal :=
  ∑ k : Fin K, h i k * W k c

/-- One layer with the normalization at node level: `dinv i` outside the sum over incoming edges. -/
def layerK {K C : Nat} (h : Fin 50000 → Fin K → EReal) (W : Fin K → Fin C → EReal) (b : Fin C → EReal)
    (i : Fin 50000) (c : Fin C) : EReal :=
  (dinv dw i * (z32 + ∑ e ∈ Finset.univ.filter (fun e => Lands (dw e) i),
      lin h W (nodeOf (sw e)) c * dinv dw (nodeOf (sw e)))
    + lin h W i c * (dinv dw i * dinv dw i)) + b c

/-- One layer with the normalization per edge: the coefficient `dinv (src e) · dinv (dst e)` inside the sum. -/
def layerR {K C : Nat} (h : Fin 50000 → Fin K → EReal) (W : Fin K → Fin C → EReal) (b : Fin C → EReal)
    (i : Fin 50000) (c : Fin C) : EReal :=
  ((z32 + ∑ e ∈ Finset.univ.filter (fun e => Lands (dw e) i),
      lin h W (nodeOf (sw e)) c * (dinv dw (nodeOf (sw e)) * dinv dw (nodeOf (dw e))))
    + lin h W i c * Ideal.div o32 (deg dw i)) + b c

/-- Two layers, a rectifier between them, normalization at node level. -/
def outK (x : Fin 50000 → Fin 256 → EReal) (W1 : Fin 256 → Fin 256 → EReal) (b1 : Fin 256 → EReal)
    (W2 : Fin 256 → Fin 128 → EReal) (b2 : Fin 128 → EReal) : Fin 50000 → Fin 128 → EReal :=
  layerK sw dw (fun i c => max (layerK sw dw x W1 b1 i c) z32) W2 b2

/-- Two layers, a rectifier between them, normalization per edge. -/
def outR (x : Fin 50000 → Fin 256 → EReal) (W1 : Fin 256 → Fin 256 → EReal) (b1 : Fin 256 → EReal)
    (W2 : Fin 256 → Fin 128 → EReal) (b2 : Fin 128 → EReal) : Fin 50000 → Fin 128 → EReal :=
  layerR sw dw (fun i c => max (layerR sw dw x W1 b1 i c) z32) W2 b2

end Layer

open Idealize.ShloMosaic.ValueIdx in
/-- The result array as a function of the six argument arrays (features, edge words, two weights and two biases),
    normalization at node level: row 0 of the edge array holds the source words, row 1 the destination words. -/
def arrK (X : (⟨2, ![50000, 256]⟩ : Shape).Idx → EReal) (E : (⟨2, ![2, 800000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal) :
    (⟨2, ![50000, 128]⟩ : Shape).Idx → EReal :=
  fun j => outK (fun e => E (ix2 (0 : Fin 2) e)) (fun e => E (ix2 (1 : Fin 2) e)) (fun i k => X (ix2 i k))
    (fun k c => W1 (ix2 k c)) (fun c => B1 (ix1 c)) (fun k c => W2 (ix2 k c)) (fun c => B2 (ix1 c)) (j 0) (j 1)

open Idealize.ShloMosaic.ValueIdx in
/-- The same with the normalization per edge. -/
def arrR (X : (⟨2, ![50000, 256]⟩ : Shape).Idx → EReal) (E : (⟨2, ![2, 800000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal) :
    (⟨2, ![50000, 128]⟩ : Shape).Idx → EReal :=
  fun j => outR (fun e => E (ix2 (0 : Fin 2) e)) (fun e => E (ix2 (1 : Fin 2) e)) (fun i k => X (ix2 i k))
    (fun k c => W1 (ix2 k c)) (fun c => B1 (ix1 c)) (fun k c => W2 (ix2 k c)) (fun c => B2 (ix1 c)) (j 0) (j 1)

end Cert.Gcn

end
-- ==== Proof.KernelSpec.lean ====
/-
  The four kernel launches as whole-array functions of their operand arrays.

  `msY` / `msSelf`: the dense projection of the rows `X` by `W`, each row scaled by its node's factor `D`, resp. by the
  square of that factor. `epi` / `epiRelu`: the node factor times the aggregated rows, plus the self-loop rows, plus the
  bias row; `epiRelu` clips at zero.
-/
import proofs.«152733_j37271726195316_2_alg».proof.Proof.Spec

noncomputable section

namespace Cert.Gcn

open Idealize.ShloMosaic Idealize.ShloMosaic.ValueIdx

/-- Rows of `X W`, row `i` scaled by `D i`. -/
def msY {K C : Nat} (X : (⟨2, ![50000, K]⟩ : Shape).Idx → EReal) (W : (⟨2, ![K, C]⟩ : Shape).Idx → EReal)
    (D : (⟨2, ![50000, 1]⟩ : Shape).Idx → EReal) : (⟨2, ![50000, C]⟩ : Shape).Idx → EReal :=
  fun j => (∑ k : Fin K, X (ix2 (j 0) k) * W (ix2 k (j 1))) * D (ix2 (j 0) (0 : Fin 1))

/-- Rows of `X W`, row `i` scaled by `D i · D i`. -/
def msSelf {K C : Nat} (X : (⟨2, ![50000, K]⟩ : Shape).Idx → EReal) (W : (⟨2, ![K, C]⟩ : Shape).Idx → EReal)
    (D : (⟨2, ![50000, 1]⟩ : Shape).Idx → EReal) : (⟨2, ![50000, C]⟩ : Shape).Idx → EReal :=
  fun j => (∑ k : Fin K, X (ix2 (j 0) k) * W (ix2 k (j 1))) * (D (ix2 (j 0) (0 : Fin 1)) * D (ix2 (j 0) (0 : Fin 1)))

/-- `D i · A i c + S i c + B c`. -/
def epi {C : Nat} (A S : (⟨2, ![50000, C]⟩ : Shape).Idx → EReal) (D : (⟨2, ![50000, 1]⟩ : Shape).Idx → EReal)
    (B : (⟨2, ![1, C]⟩ : Shape).Idx → EReal) : (⟨2, ![50000, C]⟩ : Shape).Idx → EReal :=
  fun j => (D (ix2 (j 0) (0 : Fin 1)) * A j + S j) + B (ix2 (0 : Fin 1) (j 1))

/-- The same clipped at zero. -/
def epiRelu {C : Nat} (A S : (⟨2, ![50000, C]⟩ : Shape).Idx → EReal) (D : (⟨2, ![50000, 1]⟩ : Shape).Idx → EReal)
    (B : (⟨2, ![1, C]⟩ : Shape).Idx → EReal) : (⟨2, ![50000, C]⟩ : Shape).Idx → EReal :=
  fun j => max (epi A S D B j) z32

end Cert.Gcn

end
-- ==== Proof.KernelFn.lean ====
/-
  The kernel program's result array as a function of the six argument arrays, spelt with the program's own host
  operations.

  The first stretch of host operations splits the edge array into source and destination words and computes the node
  factors `D = (1 + in-degree)^(-1/2)`. A launch projects the features and scales the rows (`msY`, `msSelf`); the next
  stretch gathers the scaled rows at the edges' source nodes and adds them up at the destination nodes (`agg256`,
  `agg128`); the following launch adds the self-loop rows and the bias (`epi`), the first time clipped at zero
  (`epiRelu`).
-/
import proofs.«152733_j37271726195316_2_alg».proof.Proof.KernelSpec
import proofs.«152733_j37271726195316_2_alg».proof.Proof.Gen.KernelIdeal

set_option maxRecDepth 16384

noncomputable section

namespace Cert.Gcn.KV

open Cert.KernelIdeal Cert.KernelIdeal.Facts₀ Cert.KernelIdeal.Facts
open Idealize.ShloMosaic Idealize.SL.Sem

/-- Float and integer arrays of a shape at the ideal instance. -/
abbrev A32 (s : Shape) := FVec Ideal s .f32
abbrev I32 (s : Shape) := IVec s 32

/-- Row 0 of the edge array: the source words. -/
def srcW (E : I32 S2x800000) : I32 S800000 :=
  shapeCast S800000 (extractStridedSlice S1x800000 ![0, 0] E slices_S2x800000_S1x800000_0_0) shapeCasts_S1x800000_S800000
/-- Row 1 of the edge array: the destination words. -/
def dstW (E : I32 S2x800000) : I32 S800000 :=
  shapeCast S800000 (extractStridedSlice S1x800000 ![1, 0] E slices_S2x800000_S1x800000_1_0) shapeCasts_S1x800000_S800000
/-- One plus the number of edges landing on each node. -/
def degA (dv : I32 S800000) : A32 S50000 :=
  addf (F := Ideal) (Host.scatterAdd (F := Ideal) scatter_S50000_S800000x1_S800000_n_0_0_1
      (broadcastInDim S50000 ![] bcast_S_S50000 (constant (F := Ideal) S_ .f32 0#32))
      (broadcastInDim S800000x1 ![0] bcast_S800000_S800000x1_0 dv)
      (broadcastInDim S800000 ![] bcast_S_S800000 (constant (F := Ideal) S_ .f32 1065353216#32)))
    (broadcastInDim S50000 ![] bcast_S_S50000 (constant (F := Ideal) S_ .f32 1065353216#32))
/-- The node factors as a column. -/
def dA (dv : I32 S800000) : A32 S50000x1 :=
  shapeCast S50000x1 (Host.rsqrt (F := Ideal) (degA dv)) shapeCasts_S50000_S50000x1
/-- Negative index words moved up by the number of nodes. -/
def wrapA (s : I32 S800000) : I32 S800000 :=
  select (cmpi .slt s (broadcastInDim S800000 ![] bcast_S_S800000 (constantI S_ 32 0#32)))
    (addi s (broadcastInDim S800000 ![] bcast_S_S800000 (constantI S_ 32 50000#32))) s
/-- Rows of `Y` gathered at the source nodes and added up at the destination nodes, 256 channels. -/
def agg256 (Y : A32 S50000x256) (sv dv : I32 S800000) : A32 S50000x256 :=
  Host.scatterAdd (F := Ideal) scatter_S50000x256_S800000x1_S800000x256_1_0_0_1
    (broadcastInDim S50000x256 ![] bcast_S_S50000x256 (constant (F := Ideal) S_ .f32 0#32))
    (broadcastInDim S800000x1 ![0] bcast_S800000_S800000x1_0 dv)
    (extf (F := Ideal) .f32 (Host.gather gather_S50000x256_S800000x1_S800000x256_1_0_n_n_0_1_1256 (truncf (F := Ideal) .bf16 Y bitsLt_bf16_f32)
      (broadcastInDim S800000x1 ![0] bcast_S800000_S800000x1_0 (wrapA sv))) bitsLt_bf16_f32)
/-- The same at 128 channels. -/
def agg128 (Y : A32 S50000x128) (sv dv : I32 S800000) : A32 S50000x128 :=
  Host.scatterAdd (F := Ideal) scatter_S50000x128_S800000x1_S800000x128_1_0_0_1
    (broadcastInDim S50000x128 ![] bcast_S_S50000x128 (constant (F := Ideal) S_ .f32 0#32))
    (broadcastInDim S800000x1 ![0] bcast_S800000_S800000x1_0 dv)
    (extf (F := Ideal) .f32 (Host.gather gather_S50000x128_S800000x1_S800000x128_1_0_n_n_0_1_1128 (truncf (F := Ideal) .bf16 Y bitsLt_bf16_f32)
      (broadcastInDim S800000x1 ![0] bcast_S800000_S800000x1_0 (wrapA sv))) bitsLt_bf16_f32)
/-- A bias vector as a row. -/
def bias256 (B : A32 S256) : A32 S1x256 := shapeCast S1x256 B shapeCasts_S256_S1x256
def bias128 (B : A32 S128) : A32 S1x128 := shapeCast S1x128 B shapeCasts_S128_S1x128

/-- The hidden features: the first layer clipped at zero. -/
def hidden (X : A32 S50000x256) (E : I32 S2x800000) (W1 : A32 S256x256) (B1 : A32 S256) : A32 S50000x256 :=
  epiRelu (agg256 (msY X W1 (dA (dstW E))) (srcW E) (dstW E)) (msSelf X W1 (dA (dstW E))) (dA (dstW E)) (bias256 B1)

/-- The program's result. -/
def kernelOut (X : A32 S50000x256) (E : I32 S2x800000) (W1 : A32 S256x256) (B1 : A32 S256) (W2 : A32 S256x128)
    (B2 : A32 S128) : A32 S50000x128 :=
  epi (agg128 (msY (hidden X E W1 B1) W2 (dA (dstW E))) (srcW E) (dstW E)) (msSelf (hidden X E W1 B1) W2 (dA (dstW E)))
    (dA (dstW E)) (bias128 B2)

end Cert.Gcn.KV

end
-- ==== Proof.KernelValue.lean ====
/-
  The kernel program's result array at the last segment boundary, as the function `kernelOut` of the argument arrays.

  The program is a fold of seven segments: three stretches of host operations and four launches. Each buffer a later
  segment reads is followed through the fold: a stretch's result is its operations applied to the buffers it reads; a
  launch's output array is the whole-array function of the arrays it finds (`RegionFinals`); every other buffer is
  carried unchanged through the segments that do not write it.
-/
import proofs.«152733_j37271726195316_2_alg».proof.Proof.KernelFn
import proofs.«152733_j37271726195316_2_alg».proof.Proof.Gen.KernelIdeal.Frame
import Idealize.ShloMosaic.Lib.StableHlo.Run

set_option maxRecDepth 16384

noncomputable section

namespace Cert.Gcn.KV

open Cert.KernelIdeal Cert.KernelIdeal.Gen
open Idealize.ShloMosaic Idealize.ShloMosaic.TcCoe Idealize.ShloMosaic.Tactic Idealize.SL.Sem Idealize.ShloMosaic.StableHlo

/-- What each launch leaves in its output arrays: the whole-array function of the arrays it finds at entry. -/
structure RegionFinals : Prop where
  f03 : ∀ (V : (c : Dev nD) → (b : Ref sig .tc) → Buf (Elt Ideal) ((c : Thread nD τ).loc b)) (c : Dev nD), (dat0 V c).arrAt 3 cfg0.N = msY (V c main_arg0) (V c main_arg2) (V c main_v11)
  f04 : ∀ (V : (c : Dev nD) → (b : Ref sig .tc) → Buf (Elt Ideal) ((c : Thread nD τ).loc b)) (c : Dev nD), (dat0 V c).arrAt 4 cfg0.N = msSelf (V c main_arg0) (V c main_arg2) (V c main_v11)
  f14 : ∀ (V : (c : Dev nD) → (b : Ref sig .tc) → Buf (Elt Ideal) ((c : Thread nD τ).loc b)) (c : Dev nD),
    (dat1 V c).arrAt 4 cfg1.N = epiRelu (V c main_v24) (V c main_v12_1) (V c main_v11) (V c main_v25)
  f23 : ∀ (V : (c : Dev nD) → (b : Ref sig .tc) → Buf (Elt Ideal) ((c : Thread nD τ).loc b)) (c : Dev nD), (dat2 V c).arrAt 3 cfg2.N = msY (V c main_v26) (V c main_arg4) (V c main_v11)
  f24 : ∀ (V : (c : Dev nD) → (b : Ref sig .tc) → Buf (Elt Ideal) ((c : Thread nD τ).loc b)) (c : Dev nD), (dat2 V c).arrAt 4 cfg2.N = msSelf (V c main_v26) (V c main_arg4) (V c main_v11)
  f34 : ∀ (V : (c : Dev nD) → (b : Ref sig .tc) → Buf (Elt Ideal) ((c : Thread nD τ).loc b)) (c : Dev nD),
    (dat3 V c).arrAt 4 cfg3.N = epi (V c main_v39) (V c main_v27_1) (V c main_v11) (V c main_v40)

variable (m : (ℓ : Loc nD τ sig) → Buf (Elt Ideal) ℓ) (ρ : Dev nD → PrngReg) (c : Dev nD)

theorem W1_main_v1 : W1 m ρ c (Proc.devRef .tc main_v1) = srcW (m ((c : Thread nD τ).loc main_arg1)) := by
  show StableHlo.after hostOps0 (W0 m ρ c) (Proc.devRef .tc main_v1) = _
  after_results <;> rfl

theorem W1_main_v3 : W1 m ρ c (Proc.devRef .tc main_v3) = dstW (m ((c : Thread nD τ).loc main_arg1)) := by
  show StableHlo.after hostOps0 (W0 m ρ c) (Proc.devRef .tc main_v3) = _
  after_results <;> rfl

theorem W1_main_v11 : W1 m ρ c (Proc.devRef .tc main_v11) = dA (dstW (m ((c : Thread nD τ).loc main_arg1))) := by
  show StableHlo.after hostOps0 (W0 m ρ c) (Proc.devRef .tc main_v11) = _
  after_results <;> rfl

theorem W1_main_arg0 : W1 m ρ c (Proc.devRef .tc main_arg0) = m ((c : Thread nD τ).loc main_arg0) := by
  show StableHlo.after hostOps0 (W0 m ρ c) (Proc.devRef .tc main_arg0) = _
  after_results <;> rfl

theorem W1_main_arg2 : W1 m ρ c (Proc.devRef .tc main_arg2) = m ((c : Thread nD τ).loc main_arg2) := by
  show StableHlo.after hostOps0 (W0 m ρ c) (Proc.devRef .tc main_arg2) = _
  after_results <;> rfl

theorem W1_main_arg3 : W1 m ρ c (Proc.devRef .tc main_arg3) = m ((c : Thread nD τ).loc main_arg3) := by
  show StableHlo.after hostOps0 (W0 m ρ c) (Proc.devRef .tc main_arg3) = _
  after_results <;> rfl

theorem W1_main_arg4 : W1 m ρ c (Proc.devRef .tc main_arg4) = m ((c : Thread nD τ).loc main_arg4) := by
  show StableHlo.after hostOps0 (W0 m ρ c) (Proc.devRef .tc main_arg4) = _
  after_results <;> rfl

theorem W1_main_arg5 : W1 m ρ c (Proc.devRef .tc main_arg5) = m ((c : Thread nD τ).loc main_arg5) := by
  show StableHlo.after hostOps0 (W0 m ρ c) (Proc.devRef .tc main_arg5) = _
  after_results <;> rfl

theorem W2_main_v1 : W2 m ρ c (Proc.devRef .tc main_v1) = srcW (m ((c : Thread nD τ).loc main_arg1)) :=
  (W2_of_ne m ρ c main_v1 (by decide)).trans (W1_main_v1 m ρ c)

theorem W2_main_v3 : W2 m ρ c (Proc.devRef .tc main_v3) = dstW (m ((c : Thread nD τ).loc main_arg1)) :=
  (W2_of_ne m ρ c main_v3 (by decide)).trans (W1_main_v3 m ρ c)

theorem W2_main_v11 : W2 m ρ c (Proc.devRef .tc main_v11) = dA (dstW (m ((c : Thread nD τ).loc main_arg1))) :=
  ((W2_arr m ρ c 2).trans (((dat0 (V1 m ρ) c).arrAt_in 2 rfl _).trans (A_eq0 (V1 m ρ) c 2))).trans (W1_main_v11 m ρ c)

theorem W2_main_arg3 : W2 m ρ c (Proc.devRef .tc main_arg3) = m ((c : Thread nD τ).loc main_arg3) :=
  (W2_of_ne m ρ c main_arg3 (by decide)).trans (W1_main_arg3 m ρ c)

theorem W2_main_arg4 : W2 m ρ c (Proc.devRef .tc main_arg4) = m ((c : Thread nD τ).loc main_arg4) :=
  (W2_of_ne m ρ c main_arg4 (by decide)).trans (W1_main_arg4 m ρ c)

theorem W2_main_arg5 : W2 m ρ c (Proc.devRef .tc main_arg5) = m ((c : Thread nD τ).loc main_arg5) :=
  (W2_of_ne m ρ c main_arg5 (by decide)).trans (W1_main_arg5 m ρ c)

theorem W2_main_v12_0 (hf : RegionFinals) : W2 m ρ c (Proc.devRef .tc main_v12_0) = msY (m ((c : Thread nD τ).loc main_arg0)) (m ((c : Thread nD τ).loc main_arg2)) (dA (dstW (m ((c : Thread nD τ).loc main_arg1)))) := by
  refine (W2_arr m ρ c 3).trans ((hf.f03 (V1 m ρ) c).trans ?_)
  rw [show V1 m ρ c main_arg0 = m ((c : Thread nD τ).loc main_arg0) from W1_main_arg0 m ρ c, show V1 m ρ c main_arg2 = m ((c : Thread nD τ).loc main_arg2) from W1_main_arg2 m ρ c, show V1 m ρ c main_v11 = dA (dstW (m ((c : Thread nD τ).loc main_arg1))) from W1_main_v11 m ρ c]

theorem W2_main_v12_1 (hf : RegionFinals) : W2 m ρ c (Proc.devRef .tc main_v12_1) = msSelf (m ((c : Thread nD τ).loc main_arg0)) (m ((c : Thread nD τ).loc main_arg2)) (dA (dstW (m ((c : Thread nD τ).loc main_arg1)))) := by
  refine (W2_arr m ρ c 4).trans ((hf.f04 (V1 m ρ) c).trans ?_)
  rw [show V1 m ρ c main_arg0 = m ((c : Thread nD τ).loc main_arg0) from W1_main_arg0 m ρ c, show V1 m ρ c main_arg2 = m ((c : Thread nD τ).loc main_arg2) from W1_main_arg2 m ρ c, show V1 m ρ c main_v11 = dA (dstW (m ((c : Thread nD τ).loc main_arg1))) from W1_main_v11 m ρ c]

theorem W3_main_v11 : W3 m ρ c (Proc.devRef .tc main_v11) = dA (dstW (m ((c : Thread nD τ).loc main_arg1))) := by
  refine Eq.trans ?_ (W2_main_v11 m ρ c)
  show StableHlo.after hostOps1 (W2 m ρ c) (Proc.devRef .tc main_v11) = _
  after_results <;> rfl

theorem W3_main_v1 : W3 m ρ c (Proc.devRef .tc main_v1) = srcW (m ((c : Thread nD τ).loc main_arg1)) := by
  refine Eq.trans ?_ (W2_main_v1 m ρ c)
  show StableHlo.after hostOps1 (W2 m ρ c) (Proc.devRef .tc main_v1) = _
  after_results <;> rfl

theorem W3_main_v3 : W3 m ρ c (Proc.devRef .tc main_v3) = dstW (m ((c : Thread nD τ).loc main_arg1)) := by
  refine Eq.trans ?_ (W2_main_v3 m ρ c)
  show StableHlo.after hostOps1 (W2 m ρ c) (Proc.devRef .tc main_v3) = _
  after_results <;> rfl

theorem W3_main_arg4 : W3 m ρ c (Proc.devRef .tc main_arg4) = m ((c : Thread nD τ).loc main_arg4) := by
  refine Eq.trans ?_ (W2_main_arg4 m ρ c)
  show StableHlo.after hostOps1 (W2 m ρ c) (Proc.devRef .tc main_arg4) = _
  after_results <;> rfl

theorem W3_main_arg5 : W3 m ρ c (Proc.devRef .tc main_arg5) = m ((c : Thread nD τ).loc main_arg5) := by
  refine Eq.trans ?_ (W2_main_arg5 m ρ c)
  show StableHlo.after hostOps1 (W2 m ρ c) (Proc.devRef .tc main_arg5) = _
  after_results <;> rfl

theorem W3_main_v12_1 (hf : RegionFinals) : W3 m ρ c (Proc.devRef .tc main_v12_1) = msSelf (m ((c : Thread nD τ).loc main_arg0)) (m ((c : Thread nD τ).loc main_arg2)) (dA (dstW (m ((c : Thread nD τ).loc main_arg1)))) := by
  refine Eq.trans ?_ (W2_main_v12_1 m ρ c hf)
  show StableHlo.after hostOps1 (W2 m ρ c) (Proc.devRef .tc main_v12_1) = _
  after_results <;> rfl

theorem W3_main_v24 (hf : RegionFinals) : W3 m ρ c (Proc.devRef .tc main_v24) = agg256 (msY (m ((c : Thread nD τ).loc main_arg0)) (m ((c : Thread nD τ).loc main_arg2)) (dA (dstW (m ((c : Thread nD τ).loc main_arg1))))) (srcW (m ((c : Thread nD τ).loc main_arg1))) (dstW (m ((c : Thread nD τ).loc main_arg1))) := by
  have h : W3 m ρ c (Proc.devRef .tc main_v24) = agg256 (W2 m ρ c (Proc.devRef .tc main_v12_0)) (W2 m ρ c (Proc.devRef .tc main_v1)) (W2 m ρ c (Proc.devRef .tc main_v3)) := by
    show StableHlo.after hostOps1 (W2 m ρ c) (Proc.devRef .tc main_v24) = _
    after_results <;> rfl
  refine h.trans ?_
  rw [W2_main_v12_0 m ρ c hf, W2_main_v1 m ρ c, W2_main_v3 m ρ c]

theorem W3_main_v25 : W3 m ρ c (Proc.devRef .tc main_v25) = bias256 (m ((c : Thread nD τ).loc main_arg3)) := by
  have h : W3 m ρ c (Proc.devRef .tc main_v25) = bias256 (W2 m ρ c (Proc.devRef .tc main_arg3)) := by
    show StableHlo.after hostOps1 (W2 m ρ c) (Proc.devRef .tc main_v25) = _
    after_results <;> rfl
  refine h.trans ?_
  rw [W2_main_arg3 m ρ c]

theorem W4_main_v1 : W4 m ρ c (Proc.devRef .tc main_v1) = srcW (m ((c : Thread nD τ).loc main_arg1)) :=
  (W4_of_ne m ρ c main_v1 (by decide)).trans (W3_main_v1 m ρ c)

theorem W4_main_v3 : W4 m ρ c (Proc.devRef .tc main_v3) = dstW (m ((c : Thread nD τ).loc main_arg1)) :=
  (W4_of_ne m ρ c main_v3 (by decide)).trans (W3_main_v3 m ρ c)

theorem W4_main_v11 : W4 m ρ c (Proc.devRef .tc main_v11) = dA (dstW (m ((c : Thread nD τ).loc main_arg1))) :=
  ((W4_arr m ρ c 2).trans (((dat1 (V3 m ρ) c).arrAt_in 2 rfl _).trans (A_eq1 (V3 m ρ) c 2))).trans (W3_main_v11 m ρ c)

theorem W4_main_arg4 : W4 m ρ c (Proc.devRef .tc main_arg4) = m ((c : Thread nD τ).loc main_arg4) :=
  (W4_of_ne m ρ c main_arg4 (by decide)).trans (W3_main_arg4 m ρ c)

theorem W4_main_arg5 : W4 m ρ c (Proc.devRef .tc main_arg5) = m ((c : Thread nD τ).loc main_arg5) :=
  (W4_of_ne m ρ c main_arg5 (by decide)).trans (W3_main_arg5 m ρ c)

theorem W4_main_v26 (hf : RegionFinals) : W4 m ρ c (Proc.devRef .tc main_v26) = hidden (m ((c : Thread nD τ).loc main_arg0)) (m ((c : Thread nD τ).loc main_arg1)) (m ((c : Thread nD τ).loc main_arg2)) (m ((c : Thread nD τ).loc main_arg3)) := by
  refine (W4_arr m ρ c 4).trans ((hf.f14 (V3 m ρ) c).trans ?_)
  rw [show V3 m ρ c main_v24 = agg256 (msY (m ((c : Thread nD τ).loc main_arg0)) (m ((c : Thread nD τ).loc main_arg2)) (dA (dstW (m ((c : Thread nD τ).loc main_arg1))))) (srcW (m ((c : Thread nD τ).loc main_arg1))) (dstW (m ((c : Thread nD τ).loc main_arg1))) from W3_main_v24 m ρ c hf, show V3 m ρ c main_v12_1 = msSelf (m ((c : Thread nD τ).loc main_arg0)) (m ((c : Thread nD τ).loc main_arg2)) (dA (dstW (m ((c : Thread nD τ).loc main_arg1)))) from W3_main_v12_1 m ρ c hf, show V3 m ρ c main_v11 = dA (dstW (m ((c : Thread nD τ).loc main_arg1))) from W3_main_v11 m ρ c, show V3 m ρ c main_v25 = bias256 (m ((c : Thread nD τ).loc main_arg3)) from W3_main_v25 m ρ c]
  rfl

theorem W5_main_v1 : W5 m ρ c (Proc.devRef .tc main_v1) = srcW (m ((c : Thread nD τ).loc main_arg1)) :=
  (W5_of_ne m ρ c main_v1 (by decide)).trans (W4_main_v1 m ρ c)

theorem W5_main_v3 : W5 m ρ c (Proc.devRef .tc main_v3) = dstW (m ((c : Thread nD τ).loc main_arg1)) :=
  (W5_of_ne m ρ c main_v3 (by decide)).trans (W4_main_v3 m ρ c)

theorem W5_main_v11 : W5 m ρ c (Proc.devRef .tc main_v11) = dA (dstW (m ((c : Thread nD τ).loc main_arg1))) :=
  ((W5_arr m ρ c 2).trans (((dat2 (V4 m ρ) c).arrAt_in 2 rfl _).trans (A_eq2 (V4 m ρ) c 2))).trans (W4_main_v11 m ρ c)

theorem W5_main_arg5 : W5 m ρ c (Proc.devRef .tc main_arg5) = m ((c : Thread nD τ).loc main_arg5) :=
  (W5_of_ne m ρ c main_arg5 (by decide)).trans (W4_main_arg5 m ρ c)

theorem W5_main_v27_0 (hf : RegionFinals) : W5 m ρ c (Proc.devRef .tc main_v27_0) = msY (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1)))) := by
  refine (W5_arr m ρ c 3).trans ((hf.f23 (V4 m ρ) c).trans ?_)
  rw [show V4 m ρ c main_v26 = hidden (m ((c : Thread nD τ).loc main_arg0)) (m ((c : Thread nD τ).loc main_arg1)) (m ((c : Thread nD τ).loc main_arg2)) (m ((c : Thread nD τ).loc main_arg3)) from W4_main_v26 m ρ c hf, show V4 m ρ c main_arg4 = m ((c : Thread nD τ).loc main_arg4) from W4_main_arg4 m ρ c, show V4 m ρ c main_v11 = dA (dstW (m ((c : Thread nD τ).loc main_arg1))) from W4_main_v11 m ρ c]

theorem W5_main_v27_1 (hf : RegionFinals) : W5 m ρ c (Proc.devRef .tc main_v27_1) = msSelf (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1)))) := by
  refine (W5_arr m ρ c 4).trans ((hf.f24 (V4 m ρ) c).trans ?_)
  rw [show V4 m ρ c main_v26 = hidden (m ((c : Thread nD τ).loc main_arg0)) (m ((c : Thread nD τ).loc main_arg1)) (m ((c : Thread nD τ).loc main_arg2)) (m ((c : Thread nD τ).loc main_arg3)) from W4_main_v26 m ρ c hf, show V4 m ρ c main_arg4 = m ((c : Thread nD τ).loc main_arg4) from W4_main_arg4 m ρ c, show V4 m ρ c main_v11 = dA (dstW (m ((c : Thread nD τ).loc main_arg1))) from W4_main_v11 m ρ c]

theorem W6_main_v11 : W6 m ρ c (Proc.devRef .tc main_v11) = dA (dstW (m ((c : Thread nD τ).loc main_arg1))) := by
  refine Eq.trans ?_ (W5_main_v11 m ρ c)
  show StableHlo.after hostOps3 (W5 m ρ c) (Proc.devRef .tc main_v11) = _
  after_results <;> rfl

theorem W6_main_v27_1 (hf : RegionFinals) : W6 m ρ c (Proc.devRef .tc main_v27_1) = msSelf (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1)))) := by
  refine Eq.trans ?_ (W5_main_v27_1 m ρ c hf)
  show StableHlo.after hostOps3 (W5 m ρ c) (Proc.devRef .tc main_v27_1) = _
  after_results <;> rfl

theorem W6_main_v39 (hf : RegionFinals) : W6 m ρ c (Proc.devRef .tc main_v39) = agg128 (msY (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1))))) (srcW (m ((c : Thread nD τ).loc main_arg1))) (dstW (m ((c : Thread nD τ).loc main_arg1))) := by
  have h : W6 m ρ c (Proc.devRef .tc main_v39) = agg128 (W5 m ρ c (Proc.devRef .tc main_v27_0)) (W5 m ρ c (Proc.devRef .tc main_v1)) (W5 m ρ c (Proc.devRef .tc main_v3)) := by
    show StableHlo.after hostOps3 (W5 m ρ c) (Proc.devRef .tc main_v39) = _
    after_results <;> rfl
  refine h.trans ?_
  exact congr (congr (congrArg agg128 (W5_main_v27_0 m ρ c hf)) (W5_main_v1 m ρ c)) (W5_main_v3 m ρ c)

theorem W6_main_v40 : W6 m ρ c (Proc.devRef .tc main_v40) = bias128 (m ((c : Thread nD τ).loc main_arg5)) := by
  have h : W6 m ρ c (Proc.devRef .tc main_v40) = bias128 (W5 m ρ c (Proc.devRef .tc main_arg5)) := by
    show StableHlo.after hostOps3 (W5 m ρ c) (Proc.devRef .tc main_v40) = _
    after_results <;> rfl
  refine h.trans ?_
  rw [W5_main_arg5 m ρ c]

/-- The result array at the last segment boundary is the program's function of the argument arrays. -/
theorem W7_value (hf : RegionFinals) : W7 m ρ c (Proc.devRef .tc main_v41)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((hf.f34 (V6 m ρ) c).trans ?_)
  rw [show V6 m ρ c main_v39 = agg128 (msY (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1))))) (srcW (m ((c : Thread nD τ).loc main_arg1))) (dstW (m ((c : Thread nD τ).loc main_arg1))) from W6_main_v39 m ρ c hf, show V6 m ρ c main_v27_1 = msSelf (hidden (m ((c : Thread nD τ).loc main_arg0)) (m ((c : Thread nD τ).loc main_arg1)) (m ((c : Thread nD τ).loc main_arg2)) (m ((c : Thread nD τ).loc main_arg3))) (m ((c : Thread nD τ).loc main_arg4)) (dA (dstW (m ((c : Thread nD τ).loc main_arg1)))) from W6_main_v27_1 m ρ c hf, show V6 m ρ c main_v11 = dA (dstW (m ((c : Thread nD τ).loc main_arg1))) from W6_main_v11 m ρ c, show V6 m ρ c main_v40 = bias128 (m ((c : Thread nD τ).loc main_arg5)) from W6_main_v40 m ρ c]
  rfl

end Cert.Gcn.KV

end
-- ==== Proof.ScatterGather.lean ====
/-
  The host's gather and accumulating scatter along the node axis, read at an index.

  The dimension numbers are those of an indexed read and of a segment sum over an array of 50000 nodes (a vector, or
  rows of `C` channels) and 800000 one-component start indices. A gather reads the operand at the start index clamped into
  the node range; a scatter-add adds to node `i` the updates of exactly the edges whose raw start index, read signed
  and NOT clamped, is `i`.
-/
import proofs.«152733_j37271726195316_2_alg».proof.Proof.Spec
import Idealize.ShloMosaic.PureOps.Ideal
import Idealize.ShloMosaic.Lib.ValueIdx

noncomputable section

namespace Cert.Gcn

open Idealize.ShloMosaic Idealize.ShloMosaic.ValueIdx

/-- Scatter into a vector of nodes: no window axis. -/
abbrev sdVec (wf : ScatterDims.WF ⟨1, ![50000]⟩ ⟨2, ![800000, 1]⟩ ⟨1, ![800000]⟩ [] [0] [0] 1) :
    ScatterDims ⟨1, ![50000]⟩ ⟨2, ![800000, 1]⟩ ⟨1, ![800000]⟩ where
  updateWindowDims := []
  insertedWindowDims := [0]
  scatterDimsToOperandDims := [0]
  indexVectorDim := 1
  wf := wf

/-- Scatter of rows of `C` channels into rows of nodes: the channel axis is the window. -/
abbrev sdRows (C : Nat) (wf : ScatterDims.WF ⟨2, ![50000, C]⟩ ⟨2, ![800000, 1]⟩ ⟨2, ![800000, C]⟩ [1] [0] [0] 1) :
    ScatterDims ⟨2, ![50000, C]⟩ ⟨2, ![800000, 1]⟩ ⟨2, ![800000, C]⟩ where
  updateWindowDims := [1]
  insertedWindowDims := [0]
  scatterDimsToOperandDims := [0]
  indexVectorDim := 1
  wf := wf

/-- Gather of single nodes out of a vector. -/
abbrev gdVec (wf : GatherDims.WF ⟨1, ![50000]⟩ ⟨2, ![800000, 1]⟩ ⟨1, ![800000]⟩ [] [0] [] [0] [] 1 ![1]) :
    GatherDims ⟨1, ![50000]⟩ ⟨2, ![800000, 1]⟩ ⟨1, ![800000]⟩ where
  offsetDims := []
  collapsedSliceDims := [0]
  operandBatchingDims := []
  startIndicesBatchingDims := []
  startIndexMap := [0]
  indexVectorDim := 1
  sliceSizes := ![1]
  wf := wf

/-- Gather of whole rows of `C` channels. -/
abbrev gdRows (C : Nat) (wf : GatherDims.WF ⟨2, ![50000, C]⟩ ⟨2, ![800000, 1]⟩ ⟨2, ![800000, C]⟩ [1] [0] [] [0] [] 1 ![1, C]) :
    GatherDims ⟨2, ![50000, C]⟩ ⟨2, ![800000, 1]⟩ ⟨2, ![800000, C]⟩ where
  offsetDims := [1]
  collapsedSliceDims := [0]
  operandBatchingDims := []
  startIndicesBatchingDims := []
  startIndexMap := [0]
  indexVectorDim := 1
  sliceSizes := ![1, C]
  wf := wf

/-- The index-array position read by edge `e` of a vector scatter: row `e`, the one component. -/
theorem sdVec_start (wf) (idx : IVec ⟨2, ![800000, 1]⟩ 32) (e : Fin 800000) :
    (sdVec wf).start (ix1 e) idx 0 = (idx (ix2 e (0 : Fin 1))).toInt := by
  unfold ScatterDims.start
  rw [dif_pos (show (0 : Fin 1) ∈ (sdVec wf).scatterDimsToOperandDims from List.mem_singleton.mpr rfl)]
  have hsi : (sdVec wf).siIdx (ix1 e) ⟨List.idxOf (0 : Fin 1) (sdVec wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The node axis of a vector scatter is an inserted axis: its window coordinate is `0`. -/
theorem sdVec_window (wf) (e : Fin 800000) : (sdVec wf).window (ix1 e) 0 = 0 := by
  unfold ScatterDims.window
  rw [dif_neg]
  simp [ScatterDims.sKept, Shape.kept]

/-- Edge `e`'s update lands on node `i` exactly when its raw index word, read signed, is `i`. -/
theorem sdVec_resultIdx_iff (wf) (idx : IVec ⟨2, ![800000, 1]⟩ 32) (e : Fin 800000) (i : Fin 50000) :
    (sdVec wf).resultIdx? (ix1 e) idx = some (ix1 i) ↔ Lands (idx (ix2 e (0 : Fin 1))) i := by
  have hs := sdVec_start wf idx e
  have hw := sdVec_window wf e
  unfold ScatterDims.resultIdx? Lands
  constructor
  · intro h
    split at h
    · rename_i hall
      have hv := congrArg Fin.val (congrFun (Option.some.inj h) 0)
      have hb := hall 0
      rw [hs, hw] at hb
      change ((sdVec wf).start (ix1 e) idx 0 + ((sdVec wf).window (ix1 e) 0 : Nat)).toNat = i.val at hv
      rw [hs, hw] at hv
      omega
    · exact absurd h (by simp)
  · intro hl
    have hall : ∀ a, 0 ≤ (sdVec wf).start (ix1 e) idx a + ((sdVec wf).window (ix1 e) a : Nat) ∧
        (sdVec wf).start (ix1 e) idx a + ((sdVec wf).window (ix1 e) a : Nat) < ((⟨1, ![50000]⟩ : Shape).size a : Nat) := by
      intro a
      obtain rfl : a = 0 := Subsingleton.elim _ _
      rw [hs, hw, hl]
      show _ ∧ _ < ((50000 : Nat) : Int)
      have := i.isLt
      omega
    rw [dif_pos hall]
    congr 1
    funext a
    obtain rfl : a = 0 := Subsingleton.elim _ _
    refine Fin.ext ?_
    show ((sdVec wf).start (ix1 e) idx 0 + ((sdVec wf).window (ix1 e) 0 : Nat)).toNat = i.val
    rw [hs, hw, hl]
    omega

/-- The scatter-add into a vector at node `i`: the operand plus the updates of the edges landing on `i`. -/
theorem scatterAdd_vec_apply (wf) (x : (⟨1, ![50000]⟩ : Shape).Idx → EReal) (idx : IVec ⟨2, ![800000, 1]⟩ 32)
    (upd : (⟨1, ![800000]⟩ : Shape).Idx → EReal) (i : Fin 50000) :
    Ideal.hostScatterAdd (sdVec wf) x idx upd (ix1 i)
      = x (ix1 i) + ∑ e ∈ Finset.univ.filter (fun e : Fin 800000 => Lands (idx (ix2 e (0 : Fin 1))) i), upd (ix1 e) := by
  show x (ix1 i) + ∑ j ∈ Finset.univ.filter (fun j => (sdVec wf).resultIdx? j idx = some (ix1 i)), upd j = _
  refine congrArg (fun t => x (ix1 i) + t) ?_
  refine Finset.sum_nbij' (fun j => (j 0 : Fin 800000)) (fun e => ix1 e) ?_ ?_ ?_ ?_ ?_
  · intro j hj
    obtain ⟨e, rfl⟩ : ∃ e : Fin 800000, j = ix1 e := ⟨j 0, eq_ix1 j⟩
    rw [Finset.mem_filter] at hj ⊢
    exact ⟨Finset.mem_univ _, (sdVec_resultIdx_iff wf idx e i).mp hj.2⟩
  · intro e he
    rw [Finset.mem_filter] at he ⊢
    exact ⟨Finset.mem_univ _, (sdVec_resultIdx_iff wf idx e i).mpr he.2⟩
  · intro j _
    exact (eq_ix1 j).symm
  · intro e _
    rfl
  · intro j _
    exact congrArg upd (eq_ix1 j)

/-- The index-array position read by the update at edge `e` of a row scatter: row `e`, the one component. -/
theorem sdRows_start0 (C : Nat) (wf) (idx : IVec ⟨2, ![800000, 1]⟩ 32) (e : Fin 800000) (c' : Fin C) (h0 : 0 < 2) :
    (sdRows C wf).start (ix2 e c') idx ⟨0, h0⟩ = (idx (ix2 e (0 : Fin 1))).toInt := by
  unfold ScatterDims.start
  rw [dif_pos (show (⟨0, h0⟩ : Fin 2) ∈ (sdRows C wf).scatterDimsToOperandDims from List.mem_singleton.mpr rfl)]
  have hsi : (sdRows C wf).siIdx (ix2 e c') ⟨List.idxOf (⟨0, h0⟩ : Fin 2) (sdRows C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The channel axis is not a scattered axis: its window starts at `0`. -/
theorem sdRows_start1 (C : Nat) (wf) (idx : IVec ⟨2, ![800000, 1]⟩ 32) (e : Fin 800000) (c' : Fin C) (h1 : 1 < 2) :
    (sdRows C wf).start (ix2 e c') idx ⟨1, h1⟩ = 0 := by
  unfold ScatterDims.start
  rw [dif_neg (show ¬ (⟨1, h1⟩ : Fin 2) ∈ (sdRows C wf).scatterDimsToOperandDims from
    fun h => Nat.one_ne_zero (congrArg Fin.val (List.mem_singleton.mp h)))]

/-- The node axis of a row scatter is an inserted axis: its window coordinate is `0`. -/
theorem sdRows_window0 (C : Nat) (wf) (e : Fin 800000) (c' : Fin C) (h0 : 0 < 2) :
    (sdRows C wf).window (ix2 e c') ⟨0, h0⟩ = 0 := by
  unfold ScatterDims.window
  rw [dif_neg]
  simp [ScatterDims.sKept, Shape.kept]

/-- The window coordinate on the channel axis is the update's channel. -/
theorem sdRows_window1 (C : Nat) (wf) (e : Fin 800000) (c' : Fin C) (h1 : 1 < 2) :
    (sdRows C wf).window (ix2 e c') ⟨1, h1⟩ = c'.val := by
  rfl

/-- The update at edge `e`, channel `c'` lands on node `i`, channel `c` exactly when the edge's raw index word, read
    signed, is `i` and the channels agree. -/
theorem sdRows_resultIdx_iff (C : Nat) (wf) (idx : IVec ⟨2, ![800000, 1]⟩ 32) (e : Fin 800000) (c' c : Fin C)
    (i : Fin 50000) :
    (sdRows C wf).resultIdx? (ix2 e c') idx = some (ix2 i c) ↔ Lands (idx (ix2 e (0 : Fin 1))) i ∧ c' = c := by
  have hs0 := sdRows_start0 C wf idx e c' Nat.zero_lt_two
  have hs1 := sdRows_start1 C wf idx e c' Nat.one_lt_two
  have hw0 := sdRows_window0 C wf e c' Nat.zero_lt_two
  have hw1 := sdRows_window1 C wf e c' Nat.one_lt_two
  unfold ScatterDims.resultIdx? Lands
  constructor
  · intro h
    split at h
    · rename_i hall
      have hf := Option.some.inj h
      have hv0 := congrArg Fin.val (congrFun hf ⟨0, Nat.zero_lt_two⟩)
      have hv1 := congrArg Fin.val (congrFun hf ⟨1, Nat.one_lt_two⟩)
      have hb0 := hall ⟨0, Nat.zero_lt_two⟩
      rw [hs0, hw0] at hb0
      change ((sdRows C wf).start (ix2 e c') idx ⟨0, Nat.zero_lt_two⟩
        + ((sdRows C wf).window (ix2 e c') ⟨0, Nat.zero_lt_two⟩ : Nat)).toNat = i.val at hv0
      change ((sdRows C wf).start (ix2 e c') idx ⟨1, Nat.one_lt_two⟩
        + ((sdRows C wf).window (ix2 e c') ⟨1, Nat.one_lt_two⟩ : Nat)).toNat = c.val at hv1
      rw [hs0, hw0] at hv0
      rw [hs1, hw1] at hv1
      exact ⟨by omega, Fin.ext (by omega)⟩
    · exact absurd h (by simp)
  · rintro ⟨hl, rfl⟩
    have hall : ∀ a, 0 ≤ (sdRows C wf).start (ix2 e c') idx a + ((sdRows C wf).window (ix2 e c') a : Nat) ∧
        (sdRows C wf).start (ix2 e c') idx a + ((sdRows C wf).window (ix2 e c') a : Nat)
          < ((⟨2, ![50000, C]⟩ : Shape).size a : Nat) := by
      intro a
      match a with
      | ⟨0, _⟩ =>
        rw [hs0, hw0, hl]
        show _ ∧ _ < ((50000 : Nat) : Int)
        have := i.isLt
        omega
      | ⟨1, _⟩ =>
        rw [hs1, hw1]
        show _ ∧ _ < ((C : Nat) : Int)
        have := c'.isLt
        omega
    rw [dif_pos hall]
    refine congrArg some ?_
    funext a
    refine Fin.ext ?_
    match a with
    | ⟨0, _⟩ =>
      show ((sdRows C wf).start (ix2 e c') idx ⟨0, Nat.zero_lt_two⟩
        + ((sdRows C wf).window (ix2 e c') ⟨0, Nat.zero_lt_two⟩ : Nat)).toNat = i.val
      rw [hs0, hw0, hl]
      omega
    | ⟨1, _⟩ =>
      show ((sdRows C wf).start (ix2 e c') idx ⟨1, Nat.one_lt_two⟩
        + ((sdRows C wf).window (ix2 e c') ⟨1, Nat.one_lt_two⟩ : Nat)).toNat = c'.val
      rw [hs1, hw1]
      omega

/-- The scatter-add of rows at node `i`, channel `c`: the operand plus channel `c` of the updates of the edges
    landing on `i`. -/
theorem scatterAdd_rows_apply (C : Nat) (wf) (x : (⟨2, ![50000, C]⟩ : Shape).Idx → EReal) (idx : IVec ⟨2, ![800000, 1]⟩ 32)
    (upd : (⟨2, ![800000, C]⟩ : Shape).Idx → EReal) (i : Fin 50000) (c : Fin C) :
    Ideal.hostScatterAdd (sdRows C wf) x idx upd (ix2 i c)
      = x (ix2 i c) + ∑ e ∈ Finset.univ.filter (fun e : Fin 800000 => Lands (idx (ix2 e (0 : Fin 1))) i), upd (ix2 e c) := by
  show x (ix2 i c) + ∑ j ∈ Finset.univ.filter (fun j => (sdRows C wf).resultIdx? j idx = some (ix2 i c)), upd j = _
  refine congrArg (fun t => x (ix2 i c) + t) ?_
  refine Finset.sum_nbij' (fun j => (j 0 : Fin 800000)) (fun e => ix2 e c) ?_ ?_ ?_ ?_ ?_
  · intro j hj
    obtain ⟨e, c', rfl⟩ : ∃ (e : Fin 800000) (c' : Fin C), j = ix2 e c' := ⟨j 0, j 1, eq_ix2 j⟩
    rw [Finset.mem_filter] at hj
    show e ∈ Finset.univ.filter (fun e : Fin 800000 => Lands (idx (ix2 e (0 : Fin 1))) i)
    exact Finset.mem_filter.mpr ⟨Finset.mem_univ _, ((sdRows_resultIdx_iff C wf idx e c' c i).mp hj.2).1⟩
  · intro e he
    rw [Finset.mem_filter] at he ⊢
    exact ⟨Finset.mem_univ _, (sdRows_resultIdx_iff C wf idx e c c i).mpr ⟨he.2, rfl⟩⟩
  · intro j hj
    obtain ⟨e, c', rfl⟩ : ∃ (e : Fin 800000) (c' : Fin C), j = ix2 e c' := ⟨j 0, j 1, eq_ix2 j⟩
    rw [Finset.mem_filter] at hj
    obtain ⟨_, rfl⟩ := (sdRows_resultIdx_iff C wf idx e c' c i).mp hj.2
    rfl
  · intro e _
    rfl
  · intro j hj
    obtain ⟨e, c', rfl⟩ : ∃ (e : Fin 800000) (c' : Fin C), j = ix2 e c' := ⟨j 0, j 1, eq_ix2 j⟩
    rw [Finset.mem_filter] at hj
    obtain ⟨_, rfl⟩ := (sdRows_resultIdx_iff C wf idx e c' c i).mp hj.2
    rfl

/-- The gather out of a vector at edge `e`: the operand at the clamped start index. -/
theorem gather_vec_apply {α : Type} (wf) (x : (⟨1, ![50000]⟩ : Shape).Idx → α) (idx : IVec ⟨2, ![800000, 1]⟩ 32)
    (e : Fin 800000) :
    Host.gather (gdVec wf) x idx (ix1 e) = x (ix1 (clampNode (idx (ix2 e (0 : Fin 1))))) := by
  unfold Host.gather
  congr 1
  funext a
  obtain rfl : a = 0 := Subsingleton.elim _ _
  refine Fin.ext ?_
  show (gdVec wf).start (ix1 e) idx 0 + (gdVec wf).batchCoord (ix1 e) 0 + (gdVec wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gdVec wf).startIndexMap from List.mem_singleton.mpr rfl)]
  have hsi : (gdVec wf).siIdx (ix1 e) ⟨List.idxOf (0 : Fin 1) (gdVec wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather of rows at edge `e`, channel `c`: channel `c` of the operand's row at the clamped start index. -/
theorem gather_rows_apply {α : Type} (C : Nat) (wf) (x : (⟨2, ![50000, C]⟩ : Shape).Idx → α)
    (idx : IVec ⟨2, ![800000, 1]⟩ 32) (e : Fin 800000) (c : Fin C) :
    Host.gather (gdRows C wf) x idx (ix2 e c) = x (ix2 (clampNode (idx (ix2 e (0 : Fin 1)))) c) := by
  unfold Host.gather
  congr 1
  funext a
  refine Fin.ext ?_
  show (gdRows C wf).start (ix2 e c) idx a + (gdRows C wf).batchCoord (ix2 e c) a + (gdRows C wf).offCoord (ix2 e c) a = _
  rw [GatherDims.batchCoord_eq_zero _ _ _ List.not_mem_nil]
  simp only [Nat.add_zero]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (gdRows C wf).startIndexMap from List.mem_singleton.mpr rfl)]
    have hsi : (gdRows C wf).siIdx (ix2 e c) ⟨List.idxOf (⟨0, by decide⟩ : Fin 2) (gdRows C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    unfold GatherDims.start
    rw [dif_neg (show ¬ (⟨1, by decide⟩ : Fin 2) ∈ (gdRows C wf).startIndexMap from
      fun h => Nat.one_ne_zero (congrArg Fin.val (List.mem_singleton.mp h)))]
    rw [Nat.zero_add]
    rfl

end Cert.Gcn

end
-- ==== Proof.KernelOutEq.lean ====
/-
  The kernel program's result array is the two-layer network with the normalization at node level.

  Each host operation of the program is read at an index: the two rows of the edge array, the wrapped index words, the
  degree and its inverse square root, the gather of scaled rows at the source nodes added up at the destination nodes,
  and the bias rows. Put together, the program's result at node `i`, channel `c` is `layerK` of the clipped first
  layer.
-/
import proofs.«152733_j37271726195316_2_alg».proof.Proof.KernelFn
import proofs.«152733_j37271726195316_2_alg».proof.Proof.ScatterGather
import Idealize.ShloMosaic.Lib.Pipeline.Value
import Idealize.ShloMosaic.Lib.ValueIdx
import Idealize.ShloMosaic.Lib.ValueLayout

set_option maxRecDepth 16384

noncomputable section

namespace Cert.Gcn.KV

open Cert.KernelIdeal Cert.KernelIdeal.Facts₀ Cert.KernelIdeal.Facts
open Idealize.ShloMosaic Idealize.SL.Sem Idealize.ShloMosaic.ValueIdx

/-- Row 0 of the edge array at edge `e`. -/
theorem srcW_apply (E : I32 S2x800000) (e : Fin 800000) : srcW E (ix1 e) = E (ix2 (0 : Fin 2) e) := by
  unfold srcW
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![0, 0] E slices_S2x800000_S1x800000_0_0 (ix2 (0 : Fin 1) e) (ix2 (0 : Fin 2) e)
      (fun a => match a with
        | ⟨0, _⟩ => by show (0 : Nat) = 0 + 0; rfl
        | ⟨1, _⟩ => by show e.val = 0 + e.val; omega)

/-- Row 1 of the edge array at edge `e`. -/
theorem dstW_apply (E : I32 S2x800000) (e : Fin 800000) : dstW E (ix1 e) = E (ix2 (1 : Fin 2) e) := by
  unfold dstW
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![1, 0] E slices_S2x800000_S1x800000_1_0 (ix2 (0 : Fin 1) e) (ix2 (1 : Fin 2) e)
      (fun a => match a with
        | ⟨0, _⟩ => by show (1 : Nat) = 1 + 0; rfl
        | ⟨1, _⟩ => by show e.val = 0 + e.val; omega)

/-- The wrapped index words, one edge at a time. -/
theorem wrapA_apply (s : I32 S800000) (e : Fin 800000) : wrapA s (ix1 e) = Cert.Gcn.wrapW (s (ix1 e)) := by
  unfold wrapA Cert.Gcn.wrapW
  rfl

/-- A vector of index words laid out as a one-component index array, read at row `e`. -/
theorem colIdx_apply (dv : I32 S800000) (e : Fin 800000) :
    broadcastInDim S800000x1 ![0] bcast_S800000_S800000x1_0 dv (ix2 e (0 : Fin 1)) = dv (ix1 e) :=
  broadcastInDim_apply _ bcast_S800000_S800000x1_0 dv (ix2 e (0 : Fin 1)) (ix1 e) (fun a => match a with
    | ⟨0, _⟩ => by show e.val = if (800000 : Nat) = 1 then 0 else e.val; rw [if_neg (by decide)])

/-- The program's scatter-add into a vector of nodes, read at node `i`. -/
theorem scatV (x : A32 S50000) (idx : I32 S800000x1) (upd : A32 S800000) (i : Fin 50000) :
    Host.scatterAdd (F := Ideal) (φ := .f32) scatter_S50000_S800000x1_S800000_n_0_0_1 x idx upd (ix1 i)
      = x (ix1 i) + ∑ e ∈ Finset.univ.filter (fun e : Fin 800000 => Cert.Gcn.Lands (idx (ix2 e (0 : Fin 1))) i), upd (ix1 e) :=
  scatterAdd_vec_apply scatter_S50000_S800000x1_S800000_n_0_0_1.wf x idx upd i

/-- The program's scatter-add of rows of 256 channels, read at node `i`, channel `c`. -/
theorem scatR256 (x : A32 S50000x256) (idx : I32 S800000x1) (upd : A32 S800000x256) (i : Fin 50000) (c : Fin 256) :
    Host.scatterAdd (F := Ideal) (φ := .f32) scatter_S50000x256_S800000x1_S800000x256_1_0_0_1 x idx upd (ix2 i c)
      = x (ix2 i c) + ∑ e ∈ Finset.univ.filter (fun e : Fin 800000 => Cert.Gcn.Lands (idx (ix2 e (0 : Fin 1))) i), upd (ix2 e c) :=
  scatterAdd_rows_apply 256 scatter_S50000x256_S800000x1_S800000x256_1_0_0_1.wf x idx upd i c

/-- The same at 128 channels. -/
theorem scatR128 (x : A32 S50000x128) (idx : I32 S800000x1) (upd : A32 S800000x128) (i : Fin 50000) (c : Fin 128) :
    Host.scatterAdd (F := Ideal) (φ := .f32) scatter_S50000x128_S800000x1_S800000x128_1_0_0_1 x idx upd (ix2 i c)
      = x (ix2 i c) + ∑ e ∈ Finset.univ.filter (fun e : Fin 800000 => Cert.Gcn.Lands (idx (ix2 e (0 : Fin 1))) i), upd (ix2 e c) :=
  scatterAdd_rows_apply 128 scatter_S50000x128_S800000x1_S800000x128_1_0_0_1.wf x idx upd i c

/-- The program's gather of rows of 256 channels, read at edge `e`, channel `c`. -/
theorem gathR256 (x : A32 S50000x256) (idx : I32 S800000x1) (e : Fin 800000) (c : Fin 256) :
    Host.gather gather_S50000x256_S800000x1_S800000x256_1_0_n_n_0_1_1256 x idx (ix2 e c)
      = x (ix2 (Cert.Gcn.clampNode (idx (ix2 e (0 : Fin 1)))) c) :=
  gather_rows_apply 256 gather_S50000x256_S800000x1_S800000x256_1_0_n_n_0_1_1256.wf x idx e c

/-- The same at 128 channels. -/
theorem gathR128 (x : A32 S50000x128) (idx : I32 S800000x1) (e : Fin 800000) (c : Fin 128) :
    Host.gather gather_S50000x128_S800000x1_S800000x128_1_0_n_n_0_1_1128 x idx (ix2 e c)
      = x (ix2 (Cert.Gcn.clampNode (idx (ix2 e (0 : Fin 1)))) c) :=
  gather_rows_apply 128 gather_S50000x128_S800000x1_S800000x128_1_0_n_n_0_1_1128.wf x idx e c

/-- The edges landing on node `i`, with the start indices a column of the words `dv`. -/
theorem landing_col (dv : I32 S800000) (i : Fin 50000) :
    Finset.univ.filter (fun e : Fin 800000 =>
        Cert.Gcn.Lands (broadcastInDim S800000x1 ![0] bcast_S800000_S800000x1_0 dv (ix2 e (0 : Fin 1))) i)
      = Finset.univ.filter (fun e : Fin 800000 => Cert.Gcn.Lands (dv (ix1 e)) i) :=
  Finset.filter_congr (fun e _ => by rw [colIdx_apply])

/-- The vector operations of the program read at an index. -/
theorem vaddf_apply {s : Shape} (x y : FVec Ideal s .f32) (j : s.Idx) : addf (F := Ideal) x y j = x j + y j := rfl
theorem hrsqrt_apply {s : Shape} (x : FVec Ideal s .f32) (j : s.Idx) : Host.rsqrt (F := Ideal) x j = Ideal.rsqrt (x j) := rfl
theorem vextf_apply {s : Shape} (x : FVec Ideal s .bf16) (h : FTy.bits .bf16 < FTy.bits .f32) (j : s.Idx) :
    extf (F := Ideal) .f32 x h j = x j := rfl
theorem vtruncf_apply {s : Shape} (x : FVec Ideal s .f32) (h : FTy.bits .bf16 < FTy.bits .f32) (j : s.Idx) :
    truncf (F := Ideal) .bf16 x h j = x j := rfl

/-- A float constant spread over a shape, read at an index. -/
theorem bconst_apply {t : Shape} (h : S_.BroadcastsInDim t (![] : Fin 0 → Fin t.rank)) (b : BitVec (FTy.bits .f32)) (j : t.Idx) :
    broadcastInDim t ![] h (constant (F := Ideal) S_ .f32 b) j = Ideal.ofBits .f32 b :=
  broadcastInDim_apply _ h (constant (F := Ideal) S_ .f32 b) j (fun a => a.elim0) (fun a => a.elim0)

/-- The degree array at node `i`. -/
theorem degA_apply (dv : I32 S800000) (i : Fin 50000) :
    degA dv (ix1 i) = Cert.Gcn.deg (fun e => dv (ix1 e)) i := by
  unfold degA
  rw [vaddf_apply, scatV, landing_col, bconst_apply, bconst_apply,
    Finset.sum_congr rfl (fun e _ => bconst_apply bcast_S_S800000 1065353216#32 (ix1 e))]
  rfl

/-- The node factors at node `i`. -/
theorem dA_apply (dv : I32 S800000) (i : Fin 50000) :
    dA dv (ix2 i (0 : Fin 1)) = Cert.Gcn.dinv (fun e => dv (ix1 e)) i := by
  unfold dA
  refine (shapeCast_apply _ shapeCasts_S50000_S50000x1 (ix2 i (0 : Fin 1)) (ix1 i) ?_).trans ?_
  · rewrite [Shape.rowMajor_val_two, Shape.rowMajor_val_one]
    show i.val = i.val * 1 + 0
    omega
  · rw [hrsqrt_apply, degA_apply]
    rfl

/-- A bias vector as a row, read at channel `c`. -/
theorem bias256_apply (B : A32 S256) (c : Fin 256) : bias256 B (ix2 (0 : Fin 1) c) = B (ix1 c) := by
  unfold bias256
  refine shapeCast_apply _ shapeCasts_S256_S1x256 (ix2 (0 : Fin 1) c) (ix1 c) ?_
  rewrite [Shape.rowMajor_val_two, Shape.rowMajor_val_one]
  show c.val = 0 * 256 + c.val
  omega
theorem bias128_apply (B : A32 S128) (c : Fin 128) : bias128 B (ix2 (0 : Fin 1) c) = B (ix1 c) := by
  unfold bias128
  refine shapeCast_apply _ shapeCasts_S128_S1x128 (ix2 (0 : Fin 1) c) (ix1 c) ?_
  rewrite [Shape.rowMajor_val_two, Shape.rowMajor_val_one]
  show c.val = 0 * 128 + c.val
  omega

/-- The aggregated rows at node `i`, channel `c`: the rows of `Y` at the edges' source nodes, added up over the edges
    landing on `i`. -/
theorem agg256_apply (Y : A32 S50000x256) (sv dv : I32 S800000) (i : Fin 50000) (c : Fin 256) :
    agg256 Y sv dv (ix2 i c) = Cert.Gcn.z32 + ∑ e ∈ Finset.univ.filter (fun e : Fin 800000 => Cert.Gcn.Lands (dv (ix1 e)) i),
      Y (ix2 (Cert.Gcn.nodeOf (sv (ix1 e))) c) := by
  unfold agg256
  rw [scatR256, landing_col, bconst_apply]
  refine congrArg (fun t => Cert.Gcn.z32 + t) (Finset.sum_congr rfl (fun e _ => ?_))
  rw [vextf_apply, gathR256, colIdx_apply, wrapA_apply, vtruncf_apply]
  rfl
theorem agg128_apply (Y : A32 S50000x128) (sv dv : I32 S800000) (i : Fin 50000) (c : Fin 128) :
    agg128 Y sv dv (ix2 i c) = Cert.Gcn.z32 + ∑ e ∈ Finset.univ.filter (fun e : Fin 800000 => Cert.Gcn.Lands (dv (ix1 e)) i),
      Y (ix2 (Cert.Gcn.nodeOf (sv (ix1 e))) c) := by
  unfold agg128
  rw [scatR128, landing_col, bconst_apply]
  refine congrArg (fun t => Cert.Gcn.z32 + t) (Finset.sum_congr rfl (fun e _ => ?_))
  rw [vextf_apply, gathR128, colIdx_apply, wrapA_apply, vtruncf_apply]
  rfl

/-- The launches' whole-array functions read at node `i`, channel `c`. -/
theorem msY_apply {K C : Nat} (X : (⟨2, ![50000, K]⟩ : Shape).Idx → EReal) (W : (⟨2, ![K, C]⟩ : Shape).Idx → EReal)
    (D : (⟨2, ![50000, 1]⟩ : Shape).Idx → EReal) (i : Fin 50000) (c : Fin C) :
    Cert.Gcn.msY X W D (ix2 i c) = (∑ k : Fin K, X (ix2 i k) * W (ix2 k c)) * D (ix2 i (0 : Fin 1)) := rfl
theorem msSelf_apply {K C : Nat} (X : (⟨2, ![50000, K]⟩ : Shape).Idx → EReal) (W : (⟨2, ![K, C]⟩ : Shape).Idx → EReal)
    (D : (⟨2, ![50000, 1]⟩ : Shape).Idx → EReal) (i : Fin 50000) (c : Fin C) :
    Cert.Gcn.msSelf X W D (ix2 i c)
      = (∑ k : Fin K, X (ix2 i k) * W (ix2 k c)) * (D (ix2 i (0 : Fin 1)) * D (ix2 i (0 : Fin 1))) := rfl
theorem epi_apply {C : Nat} (A S : (⟨2, ![50000, C]⟩ : Shape).Idx → EReal) (D : (⟨2, ![50000, 1]⟩ : Shape).Idx → EReal)
    (B : (⟨2, ![1, C]⟩ : Shape).Idx → EReal) (i : Fin 50000) (c : Fin C) :
    Cert.Gcn.epi A S D B (ix2 i c) = (D (ix2 i (0 : Fin 1)) * A (ix2 i c) + S (ix2 i c)) + B (ix2 (0 : Fin 1) c) := rfl
theorem epiRelu_apply {C : Nat} (A S : (⟨2, ![50000, C]⟩ : Shape).Idx → EReal) (D : (⟨2, ![50000, 1]⟩ : Shape).Idx → EReal)
    (B : (⟨2, ![1, C]⟩ : Shape).Idx → EReal) (i : Fin 50000) (c : Fin C) :
    Cert.Gcn.epiRelu A S D B (ix2 i c) = max (Cert.Gcn.epi A S D B (ix2 i c)) Cert.Gcn.z32 := rfl

/-- One layer of the program at node `i`, channel `c`, over the index words `sv`, `dv`: the layer with the normalization at
    node level. -/
theorem layer256_apply (H : A32 S50000x256) (W : A32 S256x256) (B : A32 S256) (sv dv : I32 S800000) (i : Fin 50000)
    (c : Fin 256) :
    Cert.Gcn.epi (agg256 (Cert.Gcn.msY H W (dA dv)) sv dv) (Cert.Gcn.msSelf H W (dA dv)) (dA dv) (bias256 B) (ix2 i c)
      = Cert.Gcn.layerK (fun e => sv (ix1 e)) (fun e => dv (ix1 e)) (fun i k => H (ix2 i k)) (fun k c => W (ix2 k c))
          (fun c => B (ix1 c)) i c := by
  have hs : ∀ e : Fin 800000, Cert.Gcn.msY H W (dA dv) (ix2 (Cert.Gcn.nodeOf (sv (ix1 e))) c)
      = Cert.Gcn.lin (fun i k => H (ix2 i k)) (fun k c => W (ix2 k c)) (Cert.Gcn.nodeOf (sv (ix1 e))) c
        * Cert.Gcn.dinv (fun e => dv (ix1 e)) (Cert.Gcn.nodeOf (sv (ix1 e))) := fun e => by
    rw [msY_apply, dA_apply]
    rfl
  rw [epi_apply, agg256_apply, msSelf_apply, dA_apply, bias256_apply, Finset.sum_congr rfl (fun e _ => hs e)]
  rfl
theorem layer128_apply (H : A32 S50000x256) (W : A32 S256x128) (B : A32 S128) (sv dv : I32 S800000) (i : Fin 50000)
    (c : Fin 128) :
    Cert.Gcn.epi (agg128 (Cert.Gcn.msY H W (dA dv)) sv dv) (Cert.Gcn.msSelf H W (dA dv)) (dA dv) (bias128 B) (ix2 i c)
      = Cert.Gcn.layerK (fun e => sv (ix1 e)) (fun e => dv (ix1 e)) (fun i k => H (ix2 i k)) (fun k c => W (ix2 k c))
          (fun c => B (ix1 c)) i c := by
  have hs : ∀ e : Fin 800000, Cert.Gcn.msY H W (dA dv) (ix2 (Cert.Gcn.nodeOf (sv (ix1 e))) c)
      = Cert.Gcn.lin (fun i k => H (ix2 i k)) (fun k c => W (ix2 k c)) (Cert.Gcn.nodeOf (sv (ix1 e))) c
        * Cert.Gcn.dinv (fun e => dv (ix1 e)) (Cert.Gcn.nodeOf (sv (ix1 e))) := fun e => by
    rw [msY_apply, dA_apply]
    rfl
  rw [epi_apply, agg128_apply, msSelf_apply, dA_apply, bias128_apply, Finset.sum_congr rfl (fun e _ => hs e)]
  rfl

/-- The hidden features at node `i`, channel `c`: the first layer clipped at zero. -/
theorem hidden_apply (X : A32 S50000x256) (E : I32 S2x800000) (W1 : A32 S256x256) (B1 : A32 S256) (i : Fin 50000)
    (c : Fin 256) :
    hidden X E W1 B1 (ix2 i c)
      = max (Cert.Gcn.layerK (fun e => E (ix2 (0 : Fin 2) e)) (fun e => E (ix2 (1 : Fin 2) e)) (fun i k => X (ix2 i k))
          (fun k c => W1 (ix2 k c)) (fun c => B1 (ix1 c)) i c) Cert.Gcn.z32 := by
  unfold hidden
  rw [epiRelu_apply, layer256_apply]
  simp only [srcW_apply, dstW_apply]

/-- THE PROGRAM'S RESULT is the two-layer network with the normalization at node level. -/
theorem kernelOut_eq (X : A32 S50000x256) (E : I32 S2x800000) (W1 : A32 S256x256) (B1 : A32 S256) (W2 : A32 S256x128)
    (B2 : A32 S128) : kernelOut X E W1 B1 W2 B2 = Cert.Gcn.arrK X E W1 B1 W2 B2 := by
  funext j
  obtain ⟨i, c, rfl⟩ : ∃ (i : Fin 50000) (c : Fin 128), j = ix2 i c := ⟨j 0, j 1, eq_ix2 j⟩
  unfold kernelOut
  rw [layer128_apply]
  simp only [hidden_apply, srcW_apply, dstW_apply]
  rfl

end Cert.Gcn.KV

end
-- ==== Proof.RegionsMM.lean ====
/-
  Each launch leaves in its output arrays the whole-array function of its operand arrays.

  A launch walks 25 grid points; point `t` reads rows `2000 t … 2000 t + 1999` of the row-blocked operands (and the whole
  weight / bias), and writes the same rows of each output. Block `t` of an output is the restriction of one function
  of the whole arrays, and the 25 blocks cover all 50000 rows.
-/
import proofs.«152733_j37271726195316_2_alg».proof.Proof.KernelSpec
import proofs.«152733_j37271726195316_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionsMM

open Cert.KernelIdeal Cert.KernelIdeal.Gen Idealize.ShloMosaic Idealize.ShloMosaic.TcCoe Idealize.SL.Sem
open Idealize.ShloMosaic.ValueIdx Idealize.ShloMosaic.Pipeline

/-! ## The body's arithmetic at an element -/

/-- The operand indices of the product at output index `i` and contraction index `k`: `(i 0, k)` on the left,
    `(k, i 1)` on the right, coordinate by coordinate. -/
theorem mm0_apply_l0 (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mm0_apply_l1 (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
theorem mm0_apply_r0 (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
theorem mm0_apply_r1 (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a [2000,256] block by a [256,256] block into a zero accumulator, at an element: the sum over the contracted axis. -/
theorem mm0_apply (a : FVec Ideal S2000x256 .bf16) (b : FVec Ideal S256x256 .bf16) (p : Fin 2000) (q : Fin 256) :
    matmul (F := Ideal) dot_S2000x256_S256x256_S2000x256_1_0_0_1_n_n none a b (constant (F := Ideal) S2000x256 .f32 0x00000000#32) (ix2 p q)
      = ∑ k : Fin 256, a (ix2 p k) * b (ix2 k q) := by
  refine (Ideal.matmul_constant_zero_apply dot_S2000x256_S256x256_S2000x256_1_0_0_1_n_n none a b (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact mm0_apply_l0 _ _
    | ⟨1, _⟩ => exact (mm0_apply_l1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (mm0_apply_r0 _ _).trans hk
    | ⟨1, _⟩ => exact mm0_apply_r1 _ _)
  rw [el, er]

/-- The operand indices of the product at output index `i` and contraction index `k`: `(i 0, k)` on the left,
    `(k, i 1)` on the right, coordinate by coordinate. -/
theorem mm2_apply_l0 (i : S2000x128.Idx) (k : dot_S2000x256_S256x128_S2000x128_1_0_0_1_n_n.contr.Idx) : (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm2_apply_l1 (i : S2000x128.Idx) (k : dot_S2000x256_S256x128_S2000x128_1_0_0_1_n_n.contr.Idx) : (dot_S2000x256_S256x128_S2000x128_1_0_0_1_n_n.lhsIdx i k 1).val = (k ⟨0, by decide⟩).val :=
  dot_S2000x256_S256x128_S2000x128_1_0_0_1_n_n.lhsIdx_val_of_single rfl i k
theorem mm2_apply_r0 (i : S2000x128.Idx) (k : dot_S2000x256_S256x128_S2000x128_1_0_0_1_n_n.contr.Idx) : (dot_S2000x256_S256x128_S2000x128_1_0_0_1_n_n.rhsIdx i k 0).val = (k ⟨0, by decide⟩).val :=
  dot_S2000x256_S256x128_S2000x128_1_0_0_1_n_n.rhsIdx_val_of_single rfl i k
theorem mm2_apply_r1 (i : S2000x128.Idx) (k : dot_S2000x256_S256x128_S2000x128_1_0_0_1_n_n.contr.Idx) : (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a [2000,256] block by a [256,128] block into a zero accumulator, at an element: the sum over the contracted axis. -/
theorem mm2_apply (a : FVec Ideal S2000x256 .bf16) (b : FVec Ideal S256x128 .bf16) (p : Fin 2000) (q : Fin 128) :
    matmul (F := Ideal) dot_S2000x256_S256x128_S2000x128_1_0_0_1_n_n none a b (constant (F := Ideal) S2000x128 .f32 0x00000000#32) (ix2 p q)
      = ∑ k : Fin 256, a (ix2 p k) * b (ix2 k q) := by
  refine (Ideal.matmul_constant_zero_apply dot_S2000x256_S256x128_S2000x128_1_0_0_1_n_n none a b (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact mm2_apply_l0 _ _
    | ⟨1, _⟩ => exact (mm2_apply_l1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (mm2_apply_r0 _ _).trans hk
    | ⟨1, _⟩ => exact mm2_apply_r1 _ _)
  rw [el, er]

/-- A column [2000,1] broadcast along the second axis reads, at (p, q), the column at p. -/
theorem bcast0_apply (x : Vec Ideal S2000x1 .f32) (p : Fin 2000) (q : Fin 256) :
    broadcastTo S2000x256 x broadcasts_S2000x1_S2000x256 (ix2 p q) = x (ix2 p (0 : Fin 1)) := by
  refine broadcastTo_apply x broadcasts_S2000x1_S2000x256 (ix2 p q) (ix2 p (0 : Fin 1)) ?_
  intro a
  match a with
  | ⟨0, _⟩ => rfl
  | ⟨1, _⟩ => rfl

/-- A column [2000,1] broadcast along the second axis reads, at (p, q), the column at p. -/
theorem bcast2_apply (x : Vec Ideal S2000x1 .f32) (p : Fin 2000) (q : Fin 128) :
    broadcastTo S2000x128 x broadcasts_S2000x1_S2000x128 (ix2 p q) = x (ix2 p (0 : Fin 1)) := by
  refine broadcastTo_apply x broadcasts_S2000x1_S2000x128 (ix2 p q) (ix2 p (0 : Fin 1)) ?_
  intro a
  match a with
  | ⟨0, _⟩ => rfl
  | ⟨1, _⟩ => rfl

/-- The first output's block at an element: the row of the product scaled by the row's factor. -/
theorem pay0_3_apply (x0 : Vec Ideal S2000x256 .f32) (x1 : Vec Ideal S256x256 .f32) (x2 : Vec Ideal S2000x1 .f32)
    (p : Fin 2000) (q : Fin 256) :
    k0_pay3 (F := Ideal) x0 x1 x2 (ix2 p q) = (∑ k : Fin 256, x0 (ix2 p k) * x1 (ix2 k q)) * x2 (ix2 p (0 : Fin 1)) := by
  unfold k0_pay3 k0_pay2 k0_pay1
  rw [shapeCast_self]
  refine (mulf_apply _ _ _).trans ?_
  rw [mm0_apply, bcast0_apply]
  rfl

/-- The second output's block at an element: the row of the product scaled by the square of the row's factor. -/
theorem pay0_4_apply (x0 : Vec Ideal S2000x256 .f32) (x1 : Vec Ideal S256x256 .f32) (x2 : Vec Ideal S2000x1 .f32)
    (p : Fin 2000) (q : Fin 256) :
    k0_pay4 (F := Ideal) x0 x1 x2 (ix2 p q)
      = (∑ k : Fin 256, x0 (ix2 p k) * x1 (ix2 k q)) * (x2 (ix2 p (0 : Fin 1)) * x2 (ix2 p (0 : Fin 1))) := by
  unfold k0_pay4 k0_pay2 k0_pay1
  rw [shapeCast_self]
  refine (mulf_apply _ _ _).trans ?_
  rw [mm0_apply, bcast0_apply]
  rfl

/-- The payloads at any index of the block (an index is the pair of its coordinates). -/
theorem pay0_3_at (x0 : Vec Ideal S2000x256 .f32) (x1 : Vec Ideal S256x256 .f32) (x2 : Vec Ideal S2000x1 .f32)
    (j : S2000x256.Idx) :
    k0_pay3 (F := Ideal) x0 x1 x2 j = (∑ k : Fin 256, x0 (ix2 (j 0) k) * x1 (ix2 k (j 1))) * x2 (ix2 (j 0) (0 : Fin 1)) := by
  obtain ⟨p, q, rfl⟩ : ∃ (p : Fin 2000) (q : Fin 256), j = ix2 p q := ⟨j 0, j 1, eq_ix2 j⟩
  exact pay0_3_apply x0 x1 x2 p q
theorem pay0_4_at (x0 : Vec Ideal S2000x256 .f32) (x1 : Vec Ideal S256x256 .f32) (x2 : Vec Ideal S2000x1 .f32)
    (j : S2000x256.Idx) :
    k0_pay4 (F := Ideal) x0 x1 x2 j
      = (∑ k : Fin 256, x0 (ix2 (j 0) k) * x1 (ix2 k (j 1))) * (x2 (ix2 (j 0) (0 : Fin 1)) * x2 (ix2 (j 0) (0 : Fin 1))) := by
  obtain ⟨p, q, rfl⟩ : ∃ (p : Fin 2000) (q : Fin 256), j = ix2 p q := ⟨j 0, j 1, eq_ix2 j⟩
  exact pay0_4_apply x0 x1 x2 p q

/-- A block whose rows are rows of `X`, against the whole `W` and the matching rows of `D`, computes the matching
    rows of the whole-array function. -/
theorem msY_blk0 (X : S50000x256.Idx → EReal) (W : S256x256.Idx → EReal) (D : S50000x1.Idx → EReal)
    (x0 : Vec Ideal S2000x256 .f32) (x1 : Vec Ideal S256x256 .f32) (x2 : Vec Ideal S2000x1 .f32)
    (i : S50000x256.Idx) (j : S2000x256.Idx)
    (h0 : ∀ k : Fin 256, x0 (ix2 (j 0) k) = X (ix2 (i 0) k))
    (h1 : ∀ k : Fin 256, x1 (ix2 k (j 1)) = W (ix2 k (i 1)))
    (h2 : x2 (ix2 (j 0) (0 : Fin 1)) = D (ix2 (i 0) (0 : Fin 1))) :
    k0_pay3 (F := Ideal) x0 x1 x2 j = msY X W D i := by
  rw [pay0_3_at, h2]
  unfold msY
  exact congrArg (· * D (ix2 (i 0) (0 : Fin 1))) (Finset.sum_congr rfl fun k _ => by rw [h0 k, h1 k])
theorem msSelf_blk0 (X : S50000x256.Idx → EReal) (W : S256x256.Idx → EReal) (D : S50000x1.Idx → EReal)
    (x0 : Vec Ideal S2000x256 .f32) (x1 : Vec Ideal S256x256 .f32) (x2 : Vec Ideal S2000x1 .f32)
    (i : S50000x256.Idx) (j : S2000x256.Idx)
    (h0 : ∀ k : Fin 256, x0 (ix2 (j 0) k) = X (ix2 (i 0) k))
    (h1 : ∀ k : Fin 256, x1 (ix2 k (j 1)) = W (ix2 k (i 1)))
    (h2 : x2 (ix2 (j 0) (0 : Fin 1)) = D (ix2 (i 0) (0 : Fin 1))) :
    k0_pay4 (F := Ideal) x0 x1 x2 j = msSelf X W D i := by
  rw [pay0_4_at, h2]
  unfold msSelf
  exact congrArg (· * (D (ix2 (i 0) (0 : Fin 1)) * D (ix2 (i 0) (0 : Fin 1)))) (Finset.sum_congr rfl fun k _ => by rw [h0 k, h1 k])

/-- The first output's block at an element: the row of the product scaled by the row's factor. -/
theorem pay2_3_apply (x0 : Vec Ideal S2000x256 .f32) (x1 : Vec Ideal S256x128 .f32) (x2 : Vec Ideal S2000x1 .f32)
    (p : Fin 2000) (q : Fin 128) :
    k2_pay3 (F := Ideal) x0 x1 x2 (ix2 p q) = (∑ k : Fin 256, x0 (ix2 p k) * x1 (ix2 k q)) * x2 (ix2 p (0 : Fin 1)) := by
  unfold k2_pay3 k2_pay2 k2_pay1
  rw [shapeCast_self, shapeCast_self]
  refine (mulf_apply _ _ _).trans ?_
  rw [mm2_apply, bcast2_apply]
  rfl

/-- The second output's block at an element: the row of the product scaled by the square of the row's factor. -/
theorem pay2_4_apply (x0 : Vec Ideal S2000x256 .f32) (x1 : Vec Ideal S256x128 .f32) (x2 : Vec Ideal S2000x1 .f32)
    (p : Fin 2000) (q : Fin 128) :
    k2_pay4 (F := Ideal) x0 x1 x2 (ix2 p q)
      = (∑ k : Fin 256, x0 (ix2 p k) * x1 (ix2 k q)) * (x2 (ix2 p (0 : Fin 1)) * x2 (ix2 p (0 : Fin 1))) := by
  unfold k2_pay4 k2_pay2 k2_pay1
  rw [shapeCast_self, shapeCast_self]
  refine (mulf_apply _ _ _).trans ?_
  rw [mm2_apply, bcast2_apply]
  rfl

/-- The payloads at any index of the block (an index is the pair of its coordinates). -/
theorem pay2_3_at (x0 : Vec Ideal S2000x256 .f32) (x1 : Vec Ideal S256x128 .f32) (x2 : Vec Ideal S2000x1 .f32)
    (j : S2000x128.Idx) :
    k2_pay3 (F := Ideal) x0 x1 x2 j = (∑ k : Fin 256, x0 (ix2 (j 0) k) * x1 (ix2 k (j 1))) * x2 (ix2 (j 0) (0 : Fin 1)) := by
  obtain ⟨p, q, rfl⟩ : ∃ (p : Fin 2000) (q : Fin 128), j = ix2 p q := ⟨j 0, j 1, eq_ix2 j⟩
  exact pay2_3_apply x0 x1 x2 p q
theorem pay2_4_at (x0 : Vec Ideal S2000x256 .f32) (x1 : Vec Ideal S256x128 .f32) (x2 : Vec Ideal S2000x1 .f32)
    (j : S2000x128.Idx) :
    k2_pay4 (F := Ideal) x0 x1 x2 j
      = (∑ k : Fin 256, x0 (ix2 (j 0) k) * x1 (ix2 k (j 1))) * (x2 (ix2 (j 0) (0 : Fin 1)) * x2 (ix2 (j 0) (0 : Fin 1))) := by
  obtain ⟨p, q, rfl⟩ : ∃ (p : Fin 2000) (q : Fin 128), j = ix2 p q := ⟨j 0, j 1, eq_ix2 j⟩
  exact pay2_4_apply x0 x1 x2 p q

/-- A block whose rows are rows of `X`, against the whole `W` and the matching rows of `D`, computes the matching
    rows of the whole-array function. -/
theorem msY_blk2 (X : S50000x256.Idx → EReal) (W : S256x128.Idx → EReal) (D : S50000x1.Idx → EReal)
    (x0 : Vec Ideal S2000x256 .f32) (x1 : Vec Ideal S256x128 .f32) (x2 : Vec Ideal S2000x1 .f32)
    (i : S50000x128.Idx) (j : S2000x128.Idx)
    (h0 : ∀ k : Fin 256, x0 (ix2 (j 0) k) = X (ix2 (i 0) k))
    (h1 : ∀ k : Fin 256, x1 (ix2 k (j 1)) = W (ix2 k (i 1)))
    (h2 : x2 (ix2 (j 0) (0 : Fin 1)) = D (ix2 (i 0) (0 : Fin 1))) :
    k2_pay3 (F := Ideal) x0 x1 x2 j = msY X W D i := by
  rw [pay2_3_at, h2]
  unfold msY
  exact congrArg (· * D (ix2 (i 0) (0 : Fin 1))) (Finset.sum_congr rfl fun k _ => by rw [h0 k, h1 k])
theorem msSelf_blk2 (X : S50000x256.Idx → EReal) (W : S256x128.Idx → EReal) (D : S50000x1.Idx → EReal)
    (x0 : Vec Ideal S2000x256 .f32) (x1 : Vec Ideal S256x128 .f32) (x2 : Vec Ideal S2000x1 .f32)
    (i : S50000x128.Idx) (j : S2000x128.Idx)
    (h0 : ∀ k : Fin 256, x0 (ix2 (j 0) k) = X (ix2 (i 0) k))
    (h1 : ∀ k : Fin 256, x1 (ix2 k (j 1)) = W (ix2 k (i 1)))
    (h2 : x2 (ix2 (j 0) (0 : Fin 1)) = D (ix2 (i 0) (0 : Fin 1))) :
    k2_pay4 (F := Ideal) x0 x1 x2 j = msSelf X W D i := by
  rw [pay2_4_at, h2]
  unfold msSelf
  exact congrArg (· * (D (ix2 (i 0) (0 : Fin 1)) * D (ix2 (i 0) (0 : Fin 1)))) (Finset.sum_congr rfl fun k _ => by rw [h0 k, h1 k])

variable (V : (c : Dev nD) → (b : Ref sig .tc) → Buf (Elt Ideal) ((c : Thread nD τ).loc b))

/-! ## The blocks and the cover -/

theorem hz : (![0, 0] : Fin 2 → Nat) = fun _ => 0 := funext fun a => by fin_cases a <;> rfl

/-- The printed index maps, decided over the grid: the row-blocked windows sit at block row `t`, block column 0; the
    weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The printed index maps, decided over the grid: the row-blocked windows sit at block row `t`, block column 0; the
    weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back through window 3 is block `t` of the whole-array function of the operands. -/
theorem flushed0_3_eq (c : Dev nD) (t : Fin cfg0.N) :
    (dat0 V c).flushed 3 t = ((cfg0.win 3).blk t).view.read (Elt Ideal) (msY (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S2000x1) hz]
  obtain ⟨e00, e01, e10, e11, e20, e21, e30, e31, e40, e41⟩ := idx_facts0 t
  funext j
  show k0_pay3 (F := Ideal) (iblk0 V c 0 t) (iblk0 V c 1 t) (iblk0 V c 2 t) ((cfg0.win 3).xinj (grid0.coords t) j)
    = msY (V c main_arg0) (V c main_arg2) (V c main_v11) (((cfg0.win 3).blk t).view.emb j)
  have hj0 : (j 0).val < 2000 := (j 0).isLt
  have hj1 : (j 1).val < 256 := (j 1).isLt
  refine msY_blk0 _ _ _ _ _ _ _ _ (fun k => ?_) (fun k => ?_) ?_
  · show V c main_arg0 _ = V c main_arg0 _
    refine congrArg (V c main_arg0) (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 256 + 1 * k.val = k.val
      omega
  · show V c main_arg2 _ = V c main_arg2 _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_3.index t (1 : Fin 2) * 256 + 1 * (j 1).val
      omega
  · show V c main_v11 _ = V c main_v11 _
    refine congrArg (V c main_v11) (funext fun a => Fin.ext ?_)
    match a with
    | ⟨0, _⟩ =>
      show win0_2.index t (0 : Fin 2) * 2000 + 1 * (j 0).val = win0_3.index t (0 : Fin 2) * 2000 + 1 * (j 0).val
      omega
    | ⟨1, _⟩ =>
      show win0_2.index t (1 : Fin 2) * 1 + 1 * 0 = 0
      omega

/-- What point `t` writes back through window 4 is block `t` of the whole-array function of the operands. -/
theorem flushed0_4_eq (c : Dev nD) (t : Fin cfg0.N) :
    (dat0 V c).flushed 4 t = ((cfg0.win 4).blk t).view.read (Elt Ideal) (msSelf (V c main_arg0) (V c main_arg2) (V c main_v11)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz, View.ld_unit_zero (S := S2000x1) hz]
  obtain ⟨e00, e01, e10, e11, e20, e21, e30, e31, e40, e41⟩ := idx_facts0 t
  funext j
  show k0_pay4 (F := Ideal) (iblk0 V c 0 t) (iblk0 V c 1 t) (iblk0 V c 2 t) ((cfg0.win 4).xinj (grid0.coords t) j)
    = msSelf (V c main_arg0) (V c main_arg2) (V c main_v11) (((cfg0.win 4).blk t).view.emb j)
  have hj0 : (j 0).val < 2000 := (j 0).isLt
  have hj1 : (j 1).val < 256 := (j 1).isLt
  refine msSelf_blk0 _ _ _ _ _ _ _ _ (fun k => ?_) (fun k => ?_) ?_
  · show V c main_arg0 _ = V c main_arg0 _
    refine congrArg (V c main_arg0) (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ =>
      show win0_0.index t (1 : Fin 2) * 256 + 1 * k.val = k.val
      omega
  · show V c main_arg2 _ = V c main_arg2 _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_4.index t (1 : Fin 2) * 256 + 1 * (j 1).val
      omega
  · show V c main_v11 _ = V c main_v11 _
    refine congrArg (V c main_v11) (funext fun a => Fin.ext ?_)
    match a with
    | ⟨0, _⟩ =>
      show win0_2.index t (0 : Fin 2) * 2000 + 1 * (j 0).val = win0_4.index t (0 : Fin 2) * 2000 + 1 * (j 0).val
      omega
    | ⟨1, _⟩ =>
      show win0_2.index t (1 : Fin 2) * 1 + 1 * 0 = 0
      omega

/-- What point `t` writes back through window 3 is block `t` of the whole-array function of the operands. -/
theorem flushed2_3_eq (c : Dev nD) (t : Fin cfg2.N) :
    (dat2 V c).flushed 3 t = ((cfg2.win 3).blk t).view.read (Elt Ideal) (msY (V c main_v26) (V c main_arg4) (V c main_v11)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x128) hz, View.ld_unit_zero (S := S2000x1) hz]
  obtain ⟨e00, e01, e10, e11, e20, e21, e30, e31, e40, e41⟩ := idx_facts2 t
  funext j
  show k2_pay3 (F := Ideal) (iblk2 V c 0 t) (iblk2 V c 1 t) (iblk2 V c 2 t) ((cfg2.win 3).xinj (grid2.coords t) j)
    = msY (V c main_v26) (V c main_arg4) (V c main_v11) (((cfg2.win 3).blk t).view.emb j)
  have hj0 : (j 0).val < 2000 := (j 0).isLt
  have hj1 : (j 1).val < 128 := (j 1).isLt
  refine msY_blk2 _ _ _ _ _ _ _ _ (fun k => ?_) (fun k => ?_) ?_
  · show V c main_v26 _ = V c main_v26 _
    refine congrArg (V c main_v26) (funext fun a => Fin.ext ?_)
    match a with
    | ⟨0, _⟩ =>
      show win2_0.index t (0 : Fin 2) * 2000 + 1 * (j 0).val = win2_3.index t (0 : Fin 2) * 2000 + 1 * (j 0).val
      omega
    | ⟨1, _⟩ =>
      show win2_0.index t (1 : Fin 2) * 256 + 1 * k.val = k.val
      omega
  · show V c main_arg4 _ = V c main_arg4 _
    refine congrArg (V c main_arg4) (funext fun a => Fin.ext ?_)
    match a with
    | ⟨0, _⟩ =>
      show win2_1.index t (0 : Fin 2) * 256 + 1 * k.val = k.val
      omega
    | ⟨1, _⟩ =>
      show win2_1.index t (1 : Fin 2) * 128 + 1 * (j 1).val = win2_3.index t (1 : Fin 2) * 128 + 1 * (j 1).val
      omega
  · show V c main_v11 _ = V c main_v11 _
    refine congrArg (V c main_v11) (funext fun a => Fin.ext ?_)
    match a with
    | ⟨0, _⟩ =>
      show win2_2.index t (0 : Fin 2) * 2000 + 1 * (j 0).val = win2_3.index t (0 : Fin 2) * 2000 + 1 * (j 0).val
      omega
    | ⟨1, _⟩ =>
      show win2_2.index t (1 : Fin 2) * 1 + 1 * 0 = 0
      omega

/-- What point `t` writes back through window 4 is block `t` of the whole-array function of the operands. -/
theorem flushed2_4_eq (c : Dev nD) (t : Fin cfg2.N) :
    (dat2 V c).flushed 4 t = ((cfg2.win 4).blk t).view.read (Elt Ideal) (msSelf (V c main_v26) (V c main_arg4) (V c main_v11)) := by
  show (cfg2.win 4).cut (grid2.coords t) ((dat2 V c).after 4 t) = _
  rw [after2_4]
  unfold out2_4
  rw [View.canon_unit_zero hz]
  simp only [View.ld_unit_zero (S := S2000x256) hz, View.ld_unit_zero (S := S256x128) hz, View.ld_unit_zero (S := S2000x1) hz]
  obtain ⟨e00, e01, e10, e11, e20, e21, e30, e31, e40, e41⟩ := idx_facts2 t
  funext j
  show k2_pay4 (F := Ideal) (iblk2 V c 0 t) (iblk2 V c 1 t) (iblk2 V c 2 t) ((cfg2.win 4).xinj (grid2.coords t) j)
    = msSelf (V c main_v26) (V c main_arg4) (V c main_v11) (((cfg2.win 4).blk t).view.emb j)
  have hj0 : (j 0).val < 2000 := (j 0).isLt
  have hj1 : (j 1).val < 128 := (j 1).isLt
  refine msSelf_blk2 _ _ _ _ _ _ _ _ (fun k => ?_) (fun k => ?_) ?_
  · show V c main_v26 _ = V c main_v26 _
    refine congrArg (V c main_v26) (funext fun a => Fin.ext ?_)
    match a with
    | ⟨0, _⟩ =>
      show win2_0.index t (0 : Fin 2) * 2000 + 1 * (j 0).val = win2_4.index t (0 : Fin 2) * 2000 + 1 * (j 0).val
      omega
    | ⟨1, _⟩ =>
      show win2_0.index t (1 : Fin 2) * 256 + 1 * k.val = k.val
      omega
  · show V c main_arg4 _ = V c main_arg4 _
    refine congrArg (V c main_arg4) (funext fun a => Fin.ext ?_)
    match a with
    | ⟨0, _⟩ =>
      show win2_1.index t (0 : Fin 2) * 256 + 1 * k.val = k.val
      omega
    | ⟨1, _⟩ =>
      show win2_1.index t (1 : Fin 2) * 128 + 1 * (j 1).val = win2_4.index t (1 : Fin 2) * 128 + 1 * (j 1).val
      omega
  · show V c main_v11 _ = V c main_v11 _
    refine congrArg (V c main_v11) (funext fun a => Fin.ext ?_)
    match a with
    | ⟨0, _⟩ =>
      show win2_2.index t (0 : Fin 2) * 2000 + 1 * (j 0).val = win2_4.index t (0 : Fin 2) * 2000 + 1 * (j 0).val
      omega
    | ⟨1, _⟩ =>
      show win2_2.index t (1 : Fin 2) * 1 + 1 * 0 = 0
      omega

/-- An index of the array is in point `t`'s block iff each coordinate is in the block's range on its axis. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v12_0).slice (win0_3.rect t)).set ↔ _
  rw [View.set_slice_whole, Rect.mem_set_unit]
  exact Iff.rfl

/-- Row `r` lies in the block of point `r / 2000`: the 25 blocks cover the array. -/
theorem covered0_3 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 25 := N_0
  have hlt : (i 0).val / 2000 < grid0.N := by omega
  obtain ⟨t, ht⟩ : ∃ t : Fin cfg0.N, t.val = (i 0).val / 2000 := ⟨⟨(i 0).val / 2000, hlt⟩, rfl⟩
  refine ⟨t, flush0_3 t, ?_⟩
  rw [mem_blk0_3]
  obtain ⟨e00, e01, e10, e11, e20, e21, e30, e31, e40, e41⟩ := idx_facts0 t
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- An index of the array is in point `t`'s block iff each coordinate is in the block's range on its axis. -/
theorem mem_blk0_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v12_1).slice (win0_4.rect t)).set ↔ _
  rw [View.set_slice_whole, Rect.mem_set_unit]
  exact Iff.rfl

/-- Row `r` lies in the block of point `r / 2000`: the 25 blocks cover the array. -/
theorem covered0_4 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 25 := N_0
  have hlt : (i 0).val / 2000 < grid0.N := by omega
  obtain ⟨t, ht⟩ : ∃ t : Fin cfg0.N, t.val = (i 0).val / 2000 := ⟨⟨(i 0).val / 2000, hlt⟩, rfl⟩
  refine ⟨t, flush0_4 t, ?_⟩
  rw [mem_blk0_4]
  obtain ⟨e00, e01, e10, e11, e20, e21, e30, e31, e40, e41⟩ := idx_facts0 t
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- An index of the array is in point `t`'s block iff each coordinate is in the block's range on its axis. -/
theorem mem_blk2_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v27_0).slice (win2_3.rect t)).set ↔ _
  rw [View.set_slice_whole, Rect.mem_set_unit]
  exact Iff.rfl

/-- Row `r` lies in the block of point `r / 2000`: the 25 blocks cover the array. -/
theorem covered2_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 25 := N_2
  have hlt : (i 0).val / 2000 < grid2.N := by omega
  obtain ⟨t, ht⟩ : ∃ t : Fin cfg2.N, t.val = (i 0).val / 2000 := ⟨⟨(i 0).val / 2000, hlt⟩, rfl⟩
  refine ⟨t, flush2_3 t, ?_⟩
  rw [mem_blk2_3]
  obtain ⟨e00, e01, e10, e11, e20, e21, e30, e31, e40, e41⟩ := idx_facts2 t
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- An index of the array is in point `t`'s block iff each coordinate is in the block's range on its axis. -/
theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v27_1).slice (win2_4.rect t)).set ↔ _
  rw [View.set_slice_whole, Rect.mem_set_unit]
  exact Iff.rfl

/-- Row `r` lies in the block of point `r / 2000`: the 25 blocks cover the array. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 25 := N_2
  have hlt : (i 0).val / 2000 < grid2.N := by omega
  obtain ⟨t, ht⟩ : ∃ t : Fin cfg2.N, t.val = (i 0).val / 2000 := ⟨⟨(i 0).val / 2000, hlt⟩, rfl⟩
  refine ⟨t, flush2_4 t, ?_⟩
  rw [mem_blk2_4]
  obtain ⟨e00, e01, e10, e11, e20, e21, e30, e31, e40, e41⟩ := idx_facts2 t
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-! ## The arrays after each launch -/

theorem final0_3 (c : Dev nD) : (dat0 V c).arrAt 3 cfg0.N = msY (V c main_arg0) (V c main_arg2) (V c main_v11) :=
  (dat0 V c).arrAt_eq_of_cover 3 (msY (V c main_arg0) (V c main_arg2) (V c main_v11)) (fun t _ => flushed0_3_eq V c t) covered0_3

theorem final0_4 (c : Dev nD) : (dat0 V c).arrAt 4 cfg0.N = msSelf (V c main_arg0) (V c main_arg2) (V c main_v11) :=
  (dat0 V c).arrAt_eq_of_cover 4 (msSelf (V c main_arg0) (V c main_arg2) (V c main_v11)) (fun t _ => flushed0_4_eq V c t) covered0_4

theorem final2_3 (c : Dev nD) : (dat2 V c).arrAt 3 cfg2.N = msY (V c main_v26) (V c main_arg4) (V c main_v11) :=
  (dat2 V c).arrAt_eq_of_cover 3 (msY (V c main_v26) (V c main_arg4) (V c main_v11)) (fun t _ => flushed2_3_eq V c t) covered2_3

theorem final2_4 (c : Dev nD) : (dat2 V c).arrAt 4 cfg2.N = msSelf (V c main_v26) (V c main_arg4) (V c main_v11) :=
  (dat2 V c).arrAt_eq_of_cover 4 (msSelf (V c main_v26) (V c main_arg4) (V c main_v11)) (fun t _ => flushed2_4_eq V c t) covered2_4

end Cert.Gcn.RegionsMM

end
-- ==== Proof.RegionsEpi.lean ====
/-
  Each launch leaves in its output arrays the whole-array function of its operand arrays.

  A launch walks 25 grid points; point `t` reads rows `2000 t … 2000 t + 1999` of the row-blocked operands (and the whole
  weight / bias), and writes the same rows of each output. Block `t` of an output is the restriction of one function
  of the whole arrays, and the 25 blocks cover all 50000 rows.
-/
import proofs.«152733_j37271726195316_2_alg».proof.Proof.KernelSpec
import proofs.«152733_j37271726195316_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionsEpi

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-! ## The payloads, index by index -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Region 1's payload at row `p`, channel `q`: the node factor times the aggregated entry, plus the self-loop entry,
    plus the bias entry, clipped at zero. -/
theorem pay1_apply (x0 : Vec Ideal S2000x1 .f32) (x2 x6 : Vec Ideal S2000x256 .f32) (x9 : Vec Ideal S1x256 .f32)
    (p : Fin 2000) (q : Fin 256) :
    k1_pay1 (F := Ideal) x0 x2 x6 x9 (ix2 p q)
      = max ((x0 (ix2 p (0 : Fin 1)) * x2 (ix2 p q) + x6 (ix2 p q)) + x9 (ix2 (0 : Fin 1) q)) Cert.Gcn.z32 := by
  unfold k1_pay1
  simp only [shapeCast_self]
  rw [maximumf_apply, addf_apply, addf_apply, mulf_apply, broadcast_apply, broadcastTo_a1_ab_apply,
    broadcastTo_1b_ab_apply, Ideal.ofBits_def]

/-- The clipped epilogue at an index `i`, from the four operand entries it is made of. -/
theorem epiRelu_at {C : Nat} (A S : (⟨2, ![50000, C]⟩ : Shape).Idx → EReal) (D : (⟨2, ![50000, 1]⟩ : Shape).Idx → EReal)
    (B : (⟨2, ![1, C]⟩ : Shape).Idx → EReal) (i0 i1 i : (⟨2, ![50000, C]⟩ : Shape).Idx)
    (i2 : (⟨2, ![50000, 1]⟩ : Shape).Idx) (i3 : (⟨2, ![1, C]⟩ : Shape).Idx)
    (h0 : i0 = i) (h1 : i1 = i) (h2 : i2 = ix2 (i 0) (0 : Fin 1)) (h3 : i3 = ix2 (0 : Fin 1) (i 1)) :
    max ((D i2 * A i0 + S i1) + B i3) Cert.Gcn.z32 = epiRelu A S D B i := by
  subst h0 h1 h2 h3; rfl

/-- The epilogue at an index `i`, from the four operand entries it is made of. -/
theorem epi_at {C : Nat} (A S : (⟨2, ![50000, C]⟩ : Shape).Idx → EReal) (D : (⟨2, ![50000, 1]⟩ : Shape).Idx → EReal)
    (B : (⟨2, ![1, C]⟩ : Shape).Idx → EReal) (i0 i1 i : (⟨2, ![50000, C]⟩ : Shape).Idx)
    (i2 : (⟨2, ![50000, 1]⟩ : Shape).Idx) (i3 : (⟨2, ![1, C]⟩ : Shape).Idx)
    (h0 : i0 = i) (h1 : i1 = i) (h2 : i2 = ix2 (i 0) (0 : Fin 1)) (h3 : i3 = ix2 (0 : Fin 1) (i 1)) :
    (D i2 * A i0 + S i1) + B i3 = epi A S D B i := by
  subst h0 h1 h2 h3; rfl

/-! ## Region 1: the clipped epilogue on 256 channels -/

theorem hz : (![0, 0] : Fin 2 → Nat) = fun _ => 0 := funext fun a => by fin_cases a <;> rfl

/-- The block index maps over the grid: the row-blocked operands move with the output along the rows (block `t` at point
    `t`), every block sits at column block 0, and the bias is one block. -/
theorem idx_facts1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = win1_4.index t (1 : Fin 2)
    ∧ win1_4.index t (0 : Fin 2) = t.val ∧ win1_4.index t (1 : Fin 2) = 0 :=
  (by decide +kernel : ∀ t : Fin grid1.N, _)

/-- What point `t` writes back is block `t` of the clipped epilogue of the operand arrays. -/
theorem flushed1_eq (c : Dev nD) (t : Fin cfg1.N) :
    (dat1 V c).flushed 4 t = ((cfg1.win 4).blk t).view.read (Elt Ideal)
      (epiRelu (V c main_v24) (V c main_v12_1) (V c main_v11) (V c main_v25)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz,
    View.ld_unit_zero (S := S1x256) hz]
  obtain ⟨e0, e1, e2, e3, e4, e5, e6, e7, e8, e9⟩ := idx_facts1 t
  funext j
  obtain ⟨p, q, rfl⟩ : ∃ (p : Fin 2000) (q : Fin 256), j = ix2 p q := ⟨j 0, j 1, eq_ix2 j⟩
  show k1_pay1 (F := Ideal) (iblk1 V c 2 t) (iblk1 V c 0 t) (iblk1 V c 1 t) (iblk1 V c 3 t) (ix2 p q)
    = epiRelu (V c main_v24) (V c main_v12_1) (V c main_v11) (V c main_v25) (((cfg1.win 4).blk t).view.emb (ix2 p q))
  rw [pay1_apply]
  have hp : p.val < 2000 := p.isLt
  have hq : q.val < 256 := q.isLt
  refine epiRelu_at (V c main_v24) (V c main_v12_1) (V c main_v11) (V c main_v25)
    (((cfg1.win 0).blk t).view.emb (ix2 p q)) (((cfg1.win 1).blk t).view.emb (ix2 p q))
    (((cfg1.win 4).blk t).view.emb (ix2 p q)) (((cfg1.win 2).blk t).view.emb (ix2 p (0 : Fin 1)))
    (((cfg1.win 3).blk t).view.emb (ix2 (0 : Fin 1) q)) ?h0 ?h1 ?h2 ?h3
  case h0 =>
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * q.val = win1_4.index t (1 : Fin 2) * 256 + 1 * q.val; omega
  case h1 =>
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 256 + 1 * q.val = win1_4.index t (1 : Fin 2) * 256 + 1 * q.val; omega
  case h2 =>
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  case h3 =>
    funext a; apply Fin.ext
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega

/-- An index of the output array is in point `t`'s block iff each coordinate is in the block's range on its axis. -/
theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v26).slice (win1_4.rect t)).set ↔ _
  rw [View.set_slice_whole, Rect.mem_set_unit]
  exact Iff.rfl

/-- Row `r` of the output is written by point `r / 2000`: the 25 blocks cover the array. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : grid1.N = 25 := N_1
  have ht : (i 0).val / 2000 < cfg1.N := by show (i 0).val / 2000 < grid1.N; omega
  refine ⟨⟨(i 0).val / 2000, ht⟩, flush1_4 _, ?_⟩
  rw [mem_blk1]
  obtain ⟨-, -, -, -, -, -, -, -, e8, e9⟩ := idx_facts1 ⟨(i 0).val / 2000, ht⟩
  have e8' : win1_4.index ⟨(i 0).val / 2000, ht⟩ (0 : Fin 2) = (i 0).val / 2000 := e8
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    omega

theorem final1_4 (c : Dev nD) :
    (dat1 V c).arrAt 4 cfg1.N = epiRelu (V c main_v24) (V c main_v12_1) (V c main_v11) (V c main_v25) :=
  (dat1 V c).arrAt_eq_of_cover 4 (epiRelu (V c main_v24) (V c main_v12_1) (V c main_v11) (V c main_v25))
    (fun t _ => flushed1_eq V c t) cover1
/-! ## Region 3: the epilogue on 128 channels -/

/-- Region 3's payload at row `p`, channel `q`: the node factor times the aggregated entry, plus the self-loop entry,
    plus the bias entry. -/
theorem pay3_apply (x0 : Vec Ideal S2000x1 .f32) (x2 x6 : Vec Ideal S2000x128 .f32) (x9 : Vec Ideal S1x128 .f32)
    (p : Fin 2000) (q : Fin 128) :
    k3_pay1 (F := Ideal) x0 x2 x6 x9 (ix2 p q)
      = (x0 (ix2 p (0 : Fin 1)) * x2 (ix2 p q) + x6 (ix2 p q)) + x9 (ix2 (0 : Fin 1) q) := by
  unfold k3_pay1
  simp only [shapeCast_self]
  rw [addf_apply, addf_apply, mulf_apply, broadcastTo_a1_ab_apply, broadcastTo_1b_ab_apply]

/-- The block index maps over the grid: the row-blocked operands move with the output along the rows (block `t` at point
    `t`), every block sits at column block 0, and the bias is one block. -/
theorem idx_facts3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = win3_4.index t (1 : Fin 2)
    ∧ win3_4.index t (0 : Fin 2) = t.val ∧ win3_4.index t (1 : Fin 2) = 0 :=
  (by decide +kernel : ∀ t : Fin grid3.N, _)

/-- What point `t` writes back is block `t` of the epilogue of the operand arrays. -/
theorem flushed3_eq (c : Dev nD) (t : Fin cfg3.N) :
    (dat3 V c).flushed 4 t = ((cfg3.win 4).blk t).view.read (Elt Ideal)
      (epi (V c main_v39) (V c main_v27_1) (V c main_v11) (V c main_v40)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz,
    View.ld_unit_zero (S := S1x128) hz]
  obtain ⟨e0, e1, e2, e3, e4, e5, e6, e7, e8, e9⟩ := idx_facts3 t
  funext j
  obtain ⟨p, q, rfl⟩ : ∃ (p : Fin 2000) (q : Fin 128), j = ix2 p q := ⟨j 0, j 1, eq_ix2 j⟩
  show k3_pay1 (F := Ideal) (iblk3 V c 2 t) (iblk3 V c 0 t) (iblk3 V c 1 t) (iblk3 V c 3 t) (ix2 p q)
    = epi (V c main_v39) (V c main_v27_1) (V c main_v11) (V c main_v40) (((cfg3.win 4).blk t).view.emb (ix2 p q))
  rw [pay3_apply]
  have hp : p.val < 2000 := p.isLt
  have hq : q.val < 128 := q.isLt
  refine epi_at (V c main_v39) (V c main_v27_1) (V c main_v11) (V c main_v40)
    (((cfg3.win 0).blk t).view.emb (ix2 p q)) (((cfg3.win 1).blk t).view.emb (ix2 p q))
    (((cfg3.win 4).blk t).view.emb (ix2 p q)) (((cfg3.win 2).blk t).view.emb (ix2 p (0 : Fin 1)))
    (((cfg3.win 3).blk t).view.emb (ix2 (0 : Fin 1) q)) ?h0 ?h1 ?h2 ?h3
  case h0 =>
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * q.val = win3_4.index t (1 : Fin 2) * 128 + 1 * q.val; omega
  case h1 =>
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 128 + 1 * q.val = win3_4.index t (1 : Fin 2) * 128 + 1 * q.val; omega
  case h2 =>
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  case h3 =>
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v41).slice (win3_4.rect t)).set ↔ _
  rw [View.set_slice_whole, Rect.mem_set_unit]
  exact Iff.rfl

/-- Row `r` of the output is written by point `r / 2000`: the 25 blocks cover the array. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 25 := N_3
  have ht : (i 0).val / 2000 < cfg3.N := by show (i 0).val / 2000 < grid3.N; omega
  refine ⟨⟨(i 0).val / 2000, ht⟩, flush3_4 _, ?_⟩
  rw [mem_blk3]
  obtain ⟨-, -, -, -, -, -, -, -, e8, e9⟩ := idx_facts3 ⟨(i 0).val / 2000, ht⟩
  have e8' : win3_4.index ⟨(i 0).val / 2000, ht⟩ (0 : Fin 2) = (i 0).val / 2000 := e8
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    omega

theorem final3_4 (c : Dev nD) :
    (dat3 V c).arrAt 4 cfg3.N = epi (V c main_v39) (V c main_v27_1) (V c main_v11) (V c main_v40) :=
  (dat3 V c).arrAt_eq_of_cover 4 (epi (V c main_v39) (V c main_v27_1) (V c main_v11) (V c main_v40))
    (fun t _ => flushed3_eq V c t) cover3

end Cert.Gcn.RegionsEpi

end
-- ==== Proof.Algebra.lean ====
/-
  The two spellings of the graph convolution agree on finite data.

  For finite features, weights and biases every quantity is a real number: the degree is a positive integer, its
  inverse square root a positive real `d i` with `d i · d i = 1 / deg i`; an edge that lands on node `i` has
  destination node `i`, so its coefficient `d (src e) · d (dst e)` is `d (src e) · d i`, and `d i` distributes over
  the finite sum of real terms.
-/
import proofs.«152733_j37271726195316_2_alg».proof.Proof.Spec

noncomputable section

namespace Cert.Gcn

open Idealize.ShloMosaic

/-- An edge whose update lands on node `i` is gathered at node `i`. -/
theorem nodeOf_of_lands {w : BitVec 32} {i : Fin 50000} (h : Lands w i) : nodeOf w = i := by
  unfold Lands at h
  have hi : i.val < 50000 := i.isLt
  have h0 : w.slt 0#32 = false := by
    simp only [BitVec.slt, BitVec.toInt_zero, decide_eq_false_iff_not, not_lt]
    omega
  have hw : wrapW w = w := by
    simp [wrapW, Scalar.select, IntOp.cmpi, h0]
  unfold nodeOf
  rw [hw]
  apply Fin.ext
  simp only [clampNode, h, Int.toNat_natCast]
  omega

/-- The word `+0.0` is the real number zero. -/
theorem z32_eq : z32 = 0 := Ideal.ofBits_zero_f32

/-- The word `1.0` is the real number one. -/
theorem o32_eq : o32 = 1 := by
  simp [o32, Ideal.ofBits, Ideal.ieee]
  rw [← EReal.coe_mul, ← EReal.coe_one]
  congr 1
  norm_num

/-- The coercion of reals into the extended reals commutes with finite sums. -/
theorem coe_sum' {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

section Layer

variable (dw : Fin 800000 → BitVec 32)

/-- The number of edges landing on node `i`. -/
def indeg (i : Fin 50000) : ℕ := (Finset.univ.filter (fun e => Lands (dw e) i)).card

/-- The real inverse square root of the degree. -/
def dR (i : Fin 50000) : ℝ := (Real.sqrt ((indeg dw i : ℝ) + 1))⁻¹

theorem deg_eq (i : Fin 50000) : deg dw i = (((indeg dw i : ℝ) + 1 : ℝ) : EReal) := by
  unfold deg indeg
  rw [z32_eq, o32_eq, Finset.sum_const, zero_add, EReal.coe_add, EReal.coe_one]
  rw [nsmul_one]
  rfl

theorem deg_pos (i : Fin 50000) : (0 : ℝ) < (indeg dw i : ℝ) + 1 := by positivity

theorem dinv_eq (i : Fin 50000) : dinv dw i = ((dR dw i : ℝ) : EReal) := by
  unfold dinv dR
  rw [deg_eq]
  show (if _ < 0 then ⊥ else if _ = 0 then ⊤ else _) = _
  rw [if_neg (not_lt.mpr (deg_pos dw i).le), if_neg (deg_pos dw i).ne']

theorem dR_mul_self (i : Fin 50000) : dR dw i * dR dw i = ((indeg dw i : ℝ) + 1)⁻¹ := by
  unfold dR
  rw [← mul_inv, Real.mul_self_sqrt (deg_pos dw i).le]

theorem div_deg_eq (i : Fin 50000) : Ideal.div o32 (deg dw i) = ((((indeg dw i : ℝ) + 1)⁻¹ : ℝ) : EReal) := by
  unfold Ideal.div
  rw [deg_eq, o32_eq, if_neg (by rw [EReal.coe_eq_zero]; exact (deg_pos dw i).ne'), one_mul, EReal.coe_inv]

theorem lin_eq {K C : Nat} (h : Fin 50000 → Fin K → ℝ) (W : Fin K → Fin C → ℝ) (i : Fin 50000) (c : Fin C) :
    lin (fun i k => (h i k : EReal)) (fun k c => (W k c : EReal)) i c = ((∑ k : Fin K, h i k * W k c : ℝ) : EReal) := by
  unfold lin
  rw [coe_sum']
  exact Finset.sum_congr rfl (fun k _ => (EReal.coe_mul _ _).symm)

end Layer

section Real

variable (sw dw : Fin 800000 → BitVec 32) {K C : Nat} (h : Fin 50000 → Fin K → ℝ) (W : Fin K → Fin C → ℝ) (b : Fin C → ℝ)

/-- The real dense projection. -/
def linR (i : Fin 50000) (c : Fin C) : ℝ := ∑ k : Fin K, h i k * W k c

/-- The real value of the layer with node-level normalization. -/
def layerKR (i : Fin 50000) (c : Fin C) : ℝ :=
  (dR dw i * (∑ e ∈ Finset.univ.filter (fun e => Lands (dw e) i), linR h W (nodeOf (sw e)) c * dR dw (nodeOf (sw e)))
    + linR h W i c * (dR dw i * dR dw i)) + b c

/-- The real value of the layer with per-edge normalization. -/
def layerRR (i : Fin 50000) (c : Fin C) : ℝ :=
  ((∑ e ∈ Finset.univ.filter (fun e => Lands (dw e) i),
      linR h W (nodeOf (sw e)) c * (dR dw (nodeOf (sw e)) * dR dw (nodeOf (dw e))))
    + linR h W i c * ((indeg dw i : ℝ) + 1)⁻¹) + b c

theorem layerK_coe (i : Fin 50000) (c : Fin C) :
    layerK sw dw (fun i k => (h i k : EReal)) (fun k c => (W k c : EReal)) (fun c => (b c : EReal)) i c
      = ((layerKR sw dw h W b i c : ℝ) : EReal) := by
  simp only [layerK, layerKR, linR, lin_eq, dinv_eq, z32_eq, zero_add, EReal.coe_add, EReal.coe_mul, coe_sum']

theorem layerR_coe (i : Fin 50000) (c : Fin C) :
    layerR sw dw (fun i k => (h i k : EReal)) (fun k c => (W k c : EReal)) (fun c => (b c : EReal)) i c
      = ((layerRR sw dw h W b i c : ℝ) : EReal) := by
  simp only [layerR, layerRR, linR, lin_eq, dinv_eq, div_deg_eq, z32_eq, zero_add, EReal.coe_add, EReal.coe_mul, coe_sum']

theorem layerKR_eq (i : Fin 50000) (c : Fin C) : layerKR sw dw h W b i c = layerRR sw dw h W b i c := by
  unfold layerKR layerRR
  have hs : dR dw i * (∑ e ∈ Finset.univ.filter (fun e => Lands (dw e) i),
        linR h W (nodeOf (sw e)) c * dR dw (nodeOf (sw e)))
      = ∑ e ∈ Finset.univ.filter (fun e => Lands (dw e) i),
        linR h W (nodeOf (sw e)) c * (dR dw (nodeOf (sw e)) * dR dw (nodeOf (dw e))) := by
    rw [Finset.mul_sum]
    apply Finset.sum_congr rfl
    intro e he
    rw [nodeOf_of_lands (Finset.mem_filter.mp he).2]
    ring
  rw [hs, dR_mul_self]

end Real

/-- On finite data the layer with node-level normalization is the layer with per-edge normalization. -/
theorem layer_eq (sw dw : Fin 800000 → BitVec 32) {K C : Nat} (h : Fin 50000 → Fin K → EReal) (W : Fin K → Fin C → EReal)
    (b : Fin C → EReal) (hh : ∀ i k, ∃ r : ℝ, h i k = (r : EReal)) (hW : ∀ k c, ∃ r : ℝ, W k c = (r : EReal))
    (hb : ∀ c, ∃ r : ℝ, b c = (r : EReal)) :
    layerK sw dw h W b = layerR sw dw h W b ∧ ∀ i c, ∃ r : ℝ, layerK sw dw h W b i c = (r : EReal) := by
  choose hr hhr using hh
  choose Wr hWr using hW
  choose br hbr using hb
  obtain rfl : h = fun i k => (hr i k : EReal) := funext fun i => funext fun k => hhr i k
  obtain rfl : W = fun k c => (Wr k c : EReal) := funext fun k => funext fun c => hWr k c
  obtain rfl : b = fun c => (br c : EReal) := funext fun c => hbr c
  refine ⟨funext fun i => funext fun c => ?_, fun i c => ⟨_, layerK_coe sw dw hr Wr br i c⟩⟩
  rw [layerK_coe, layerR_coe, layerKR_eq]

/-- On finite data the two networks agree. -/
theorem out_eq (sw dw : Fin 800000 → BitVec 32) (x : Fin 50000 → Fin 256 → EReal) (W1 : Fin 256 → Fin 256 → EReal)
    (b1 : Fin 256 → EReal) (W2 : Fin 256 → Fin 128 → EReal) (b2 : Fin 128 → EReal)
    (hx : ∀ i k, ∃ r : ℝ, x i k = (r : EReal)) (hW1 : ∀ k c, ∃ r : ℝ, W1 k c = (r : EReal))
    (hb1 : ∀ c, ∃ r : ℝ, b1 c = (r : EReal)) (hW2 : ∀ k c, ∃ r : ℝ, W2 k c = (r : EReal))
    (hb2 : ∀ c, ∃ r : ℝ, b2 c = (r : EReal)) :
    outK sw dw x W1 b1 W2 b2 = outR sw dw x W1 b1 W2 b2 := by
  obtain ⟨h1, hreal⟩ := layer_eq sw dw x W1 b1 hx hW1 hb1
  have hhid : ∀ i c, ∃ r : ℝ, max (layerK sw dw x W1 b1 i c) z32 = (r : EReal) := by
    intro i c
    obtain ⟨r, hr⟩ := hreal i c
    rcases max_choice (layerK sw dw x W1 b1 i c) z32 with hm | hm
    · exact ⟨r, by rw [hm, hr]⟩
    · exact ⟨0, by rw [hm, z32_eq]; rfl⟩
  unfold outK outR
  rw [← h1]
  exact (layer_eq sw dw _ W2 b2 hhid hW2 hb2).1

end Cert.Gcn

end
-- ==== Proof.ArrEq.lean ====
/-
  The two result arrays agree on finite data.

  Both arrays read the two-layer networks of the specification at the row and column of the result index, with the
  features, weights and biases read off the argument arrays; finite argument arrays give finite features, weights and
  biases, on which the two networks agree.
-/
import proofs.«152733_j37271726195316_2_alg».proof.Proof.Spec
import proofs.«152733_j37271726195316_2_alg».proof.Proof.Algebra

noncomputable section

namespace Cert.Gcn

open Idealize.ShloMosaic

/-- On finite argument arrays the result array with node-level normalization is the one with per-edge normalization. -/
theorem arr_eq (X : (⟨2, ![50000, 256]⟩ : Shape).Idx → EReal) (E : (⟨2, ![2, 800000]⟩ : Shape).Idx → BitVec 32)
    (W1 : (⟨2, ![256, 256]⟩ : Shape).Idx → EReal) (B1 : (⟨1, ![256]⟩ : Shape).Idx → EReal)
    (W2 : (⟨2, ![256, 128]⟩ : Shape).Idx → EReal) (B2 : (⟨1, ![128]⟩ : Shape).Idx → EReal)
    (hX : ∀ j, ∃ r : ℝ, X j = (r : EReal)) (hW1 : ∀ j, ∃ r : ℝ, W1 j = (r : EReal))
    (hB1 : ∀ j, ∃ r : ℝ, B1 j = (r : EReal)) (hW2 : ∀ j, ∃ r : ℝ, W2 j = (r : EReal))
    (hB2 : ∀ j, ∃ r : ℝ, B2 j = (r : EReal)) :
    arrK X E W1 B1 W2 B2 = arrR X E W1 B1 W2 B2 := by
  funext j
  unfold arrK arrR
  rw [out_eq _ _ _ _ _ _ _ (fun i k => hX _) (fun k c => hW1 _) (fun c => hB1 _) (fun k c => hW2 _) (fun c => hB2 _)]

end Cert.Gcn

end
-- ==== Proof.Finite.lean ====
/-
  The generated precondition says that every entry of the five float arrays is finite.

  The precondition is the conjunction, over the five float arrays, of "every entry `x` satisfies `|x| < +∞`", where
  `|x| = max x (-x)` over the extended reals and the bound is the float word of `+∞`. An extended real whose absolute
  value is below `+∞` is neither `+∞` nor `-∞` (the absolute value of either is `+∞`), so it is a real number.
-/
import proofs.«152733_j37271726195316_2_alg».proof.Pre_finite_inputs
import Idealize.ShloMosaic.Lib.ReduceAll
import Idealize.ShloMosaic.Lib.ValueIdx

noncomputable section

namespace Cert.Gcn

open Idealize.ShloMosaic

/-- The float word `0x7F800000` is `+∞`. -/
theorem inf32_eq : Ideal.ofBits .f32 0x7F800000#32 = ⊤ := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [inf32_eq] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

open Cert.Pre_finite_inputs in
/-- Under the generated precondition every entry of the five float arrays is a real number. -/
theorem finite_of_pre [Cert.Pre_finite_inputs.Facts]
    (x0 : FVec Ideal S50000x256 .f32) (x1 : IVec S2x800000 32) (x2 : FVec Ideal S256x256 .f32)
    (x3 : FVec Ideal S256 .f32) (x4 : FVec Ideal S256x128 .f32) (x5 : FVec Ideal S128 .f32)
    (h : Cert.Pre_finite_inputs.fn (F := Ideal) x0 x1 x2 x3 x4 x5 = fun _ => 1#1) :
    (∀ j, ∃ r : ℝ, x0 j = (r : EReal)) ∧ (∀ j, ∃ r : ℝ, x2 j = (r : EReal)) ∧ (∀ j, ∃ r : ℝ, x3 j = (r : EReal))
      ∧ (∀ j, ∃ r : ℝ, x4 j = (r : EReal)) ∧ (∀ j, ∃ r : ℝ, x5 j = (r : EReal)) := by
  have h0 := congrFun h ValueIdx.ix0
  dsimp only [Cert.Pre_finite_inputs.fn, Cert.Pre_finite_inputs.fn_part1, andi] at h0
  simp only [IntOp.andi_eq_one] at h0
  obtain ⟨⟨⟨⟨e0, e2⟩, e3⟩, e4⟩, e5⟩ := h0
  refine ⟨fun j => ?_, fun j => ?_, fun j => ?_, fun j => ?_, fun j => ?_⟩
  · exact real_of_abs_lt (x0 j) (Host.reduce_andi_all _ _ _ _ _ e0 j)
  · exact real_of_abs_lt (x2 j) (Host.reduce_andi_all _ _ _ _ _ e2 j)
  · exact real_of_abs_lt (x3 j) (Host.reduce_andi_all _ _ _ _ _ e3 j)
  · exact real_of_abs_lt (x4 j) (Host.reduce_andi_all _ _ _ _ _ e4 j)
  · exact real_of_abs_lt (x5 j) (Host.reduce_andi_all _ _ _ _ _ e5 j)

end Cert.Gcn

end
-- ==== Proof.RefValue.lean ====
/-
  The reference program's result, read one operation at a time, is the two-layer network with the normalization per
  edge: every stage of the program is identified, at explicit node / channel / edge coordinates, with the
  corresponding quantity of the specification (degree, inverse square root, dense projection, per-edge update,
  accumulated sum, layer output).
-/
import proofs.«152733_j37271726195316_2_alg».proof.Proof.Spec
import proofs.«152733_j37271726195316_2_alg».proof.Proof.ScatterGather
import proofs.«152733_j37271726195316_2_alg».proof.Proof.Gen.ReferenceIdeal.Read

noncomputable section

namespace Cert.Gcn.Ref

open Cert.ReferenceIdeal Cert.ReferenceIdeal.Read Idealize.ShloMosaic Idealize.ShloMosaic.ValueIdx Cert.Gcn

/-- The source word of edge `e` is row 0 of the edge array. -/
theorem v1_eq (x1 : (⟨S2x800000, .i32⟩ : BufTy).Contents (Elt Ideal)) (e : Fin 800000) :
    val_main_v1 (F := Ideal) x1 (ix1 e) = x1 (ix2 (0 : Fin 2) e) := by
  rw [val_main_v1_apply, val_main_v0_apply]
  congr 1
  funext a
  exact Fin.ext (by match a with | ⟨0,_⟩ => rfl | ⟨1,_⟩ => exact Nat.mod_eq_of_lt e.isLt)

/-- The destination word of edge `e` is row 1 of the edge array. -/
theorem v3_eq (x1 : (⟨S2x800000, .i32⟩ : BufTy).Contents (Elt Ideal)) (e : Fin 800000) :
    val_main_v3 (F := Ideal) x1 (ix1 e) = x1 (ix2 (1 : Fin 2) e) := by
  rw [val_main_v3_apply, val_main_v2_apply]
  congr 1
  funext a
  exact Fin.ext (by match a with | ⟨0,_⟩ => rfl | ⟨1,_⟩ => exact Nat.mod_eq_of_lt e.isLt)

/-- The program's scatter-add into a vector of nodes, at node `i`. -/
theorem scat_vec (x : (⟨1, ![50000]⟩ : Shape).Idx → EReal) (idx : IVec ⟨2, ![800000, 1]⟩ 32)
    (upd : (⟨1, ![800000]⟩ : Shape).Idx → EReal) (i : Fin 50000) :
    Host.scatterAdd (F := Ideal) (φ := .f32) scatter_S50000_S800000x1_S800000_n_0_0_1 x idx upd (ix1 i)
      = x (ix1 i) + ∑ e ∈ Finset.univ.filter (fun e : Fin 800000 => Lands (idx (ix2 e (0 : Fin 1))) i), upd (ix1 e) :=
  scatterAdd_vec_apply scatter_S50000_S800000x1_S800000_n_0_0_1.wf x idx upd i

/-- The program's scatter-add of rows of 256 channels, at node `i`, channel `c`. -/
theorem scat_rows256 (x : (⟨2, ![50000, 256]⟩ : Shape).Idx → EReal) (idx : IVec ⟨2, ![800000, 1]⟩ 32)
    (upd : (⟨2, ![800000, 256]⟩ : Shape).Idx → EReal) (i : Fin 50000) (c : Fin 256) :
    Host.scatterAdd (F := Ideal) (φ := .f32) scatter_S50000x256_S800000x1_S800000x256_1_0_0_1 x idx upd (ix2 i c)
      = x (ix2 i c) + ∑ e ∈ Finset.univ.filter (fun e : Fin 800000 => Lands (idx (ix2 e (0 : Fin 1))) i), upd (ix2 e c) :=
  scatterAdd_rows_apply 256 scatter_S50000x256_S800000x1_S800000x256_1_0_0_1.wf x idx upd i c

/-- The program's scatter-add of rows of 128 channels, at node `i`, channel `c`. -/
theorem scat_rows128 (x : (⟨2, ![50000, 128]⟩ : Shape).Idx → EReal) (idx : IVec ⟨2, ![800000, 1]⟩ 32)
    (upd : (⟨2, ![800000, 128]⟩ : Shape).Idx → EReal) (i : Fin 50000) (c : Fin 128) :
    Host.scatterAdd (F := Ideal) (φ := .f32) scatter_S50000x128_S800000x1_S800000x128_1_0_0_1 x idx upd (ix2 i c)
      = x (ix2 i c) + ∑ e ∈ Finset.univ.filter (fun e : Fin 800000 => Lands (idx (ix2 e (0 : Fin 1))) i), upd (ix2 e c) :=
  scatterAdd_rows_apply 128 scatter_S50000x128_S800000x1_S800000x128_1_0_0_1.wf x idx upd i c

/-- The program's gather out of a vector of nodes, at edge `e`. -/
theorem gath_vec (x : (⟨1, ![50000]⟩ : Shape).Idx → EReal) (idx : IVec ⟨2, ![800000, 1]⟩ 32) (e : Fin 800000) :
    Host.gather gather_S50000_S800000x1_S800000_n_0_n_n_0_1_1 x idx (ix1 e)
      = x (ix1 (clampNode (idx (ix2 e (0 : Fin 1))))) :=
  gather_vec_apply gather_S50000_S800000x1_S800000_n_0_n_n_0_1_1.wf x idx e

/-- The program's gather of rows of 256 channels, at edge `e`, channel `c`. -/
theorem gath_rows256 (x : (⟨2, ![50000, 256]⟩ : Shape).Idx → EReal) (idx : IVec ⟨2, ![800000, 1]⟩ 32)
    (e : Fin 800000) (c : Fin 256) :
    Host.gather gather_S50000x256_S800000x1_S800000x256_1_0_n_n_0_1_1256 x idx (ix2 e c)
      = x (ix2 (clampNode (idx (ix2 e (0 : Fin 1)))) c) :=
  gather_rows_apply 256 gather_S50000x256_S800000x1_S800000x256_1_0_n_n_0_1_1256.wf x idx e c

/-- The program's gather of rows of 128 channels, at edge `e`, channel `c`. -/
theorem gath_rows128 (x : (⟨2, ![50000, 128]⟩ : Shape).Idx → EReal) (idx : IVec ⟨2, ![800000, 1]⟩ 32)
    (e : Fin 800000) (c : Fin 128) :
    Host.gather gather_S50000x128_S800000x1_S800000x128_1_0_n_n_0_1_1128 x idx (ix2 e c)
      = x (ix2 (clampNode (idx (ix2 e (0 : Fin 1)))) c) :=
  gather_rows_apply 128 gather_S50000x128_S800000x1_S800000x128_1_0_n_n_0_1_1128.wf x idx e c

/-! ## The first layer -/

/-- The wrapped source word of edge `e`. -/
theorem v16_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v16 (F := Ideal) x1 (ix1 e) = wrapW (x1 (ix2 (0 : Fin 2) e)) := by
  rw [val_main_v16_apply, val_main_v13_apply, val_main_v15_apply, val_main_v12_apply, val_main_v14_apply,
    val_main_c_apply, val_main_c_2_apply, v1_eq]
  rfl

/-- The column of wrapped source words, as start indices. -/
theorem v17_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v17 (F := Ideal) x1 (ix2 e (0 : Fin 1)) = wrapW (x1 (ix2 (0 : Fin 2) e)) := by
  rw [val_main_v17_apply]
  have h : idx_main_v17 (ix2 e (0 : Fin 1)) = ix1 e := funext fun a => Fin.ext (by match a with | ⟨0,_⟩ => rfl)
  rw [h, v16_eq x0 x1 x2 x3 x4 x5]

/-- The wrapped destination word of edge `e`. -/
theorem v23_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v23 (F := Ideal) x1 (ix1 e) = wrapW (x1 (ix2 (1 : Fin 2) e)) := by
  rw [val_main_v23_apply, val_main_v20_apply, val_main_v22_apply, val_main_v19_apply, val_main_v21_apply,
    val_main_c_3_apply, val_main_c_4_apply, v3_eq]
  rfl

/-- The column of wrapped destination words, as start indices. -/
theorem v24_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v24 (F := Ideal) x1 (ix2 e (0 : Fin 1)) = wrapW (x1 (ix2 (1 : Fin 2) e)) := by
  rw [val_main_v24_apply]
  have h : idx_main_v24 (ix2 e (0 : Fin 1)) = ix1 e := funext fun a => Fin.ext (by match a with | ⟨0,_⟩ => rfl)
  rw [h, v23_eq x0 x1 x2 x3 x4 x5]

/-- The wrapped source word of edge `e`, as recomputed for the gather of rows. -/
theorem v31_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v31 (F := Ideal) x1 (ix1 e) = wrapW (x1 (ix2 (0 : Fin 2) e)) := by
  rw [val_main_v31_apply, val_main_v28_apply, val_main_v30_apply, val_main_v27_apply, val_main_v29_apply,
    val_main_c_5_apply, val_main_c_6_apply, v1_eq]
  rfl

/-- Its column, as start indices. -/
theorem v32_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v32 (F := Ideal) x1 (ix2 e (0 : Fin 1)) = wrapW (x1 (ix2 (0 : Fin 2) e)) := by
  rw [val_main_v32_apply]
  have h : idx_main_v32 (ix2 e (0 : Fin 1)) = ix1 e := funext fun a => Fin.ext (by match a with | ⟨0,_⟩ => rfl)
  rw [h, v31_eq x0 x1 x2 x3 x4 x5]

/-- The column of raw destination words, as scatter indices (degree count). -/
theorem v6_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v6 (F := Ideal) x1 (ix2 e (0 : Fin 1)) = (x1 (ix2 (1 : Fin 2) e)) := by
  rw [val_main_v6_apply]
  have h : idx_main_v6 (ix2 e (0 : Fin 1)) = ix1 e := funext fun a => Fin.ext (by match a with | ⟨0,_⟩ => rfl)
  rw [h, v3_eq]

/-- The column of raw destination words, as scatter indices (accumulation of rows). -/
theorem v38_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v38 (F := Ideal) x1 (ix2 e (0 : Fin 1)) = (x1 (ix2 (1 : Fin 2) e)) := by
  rw [val_main_v38_apply]
  have h : idx_main_v38 (ix2 e (0 : Fin 1)) = ix1 e := funext fun a => Fin.ext (by match a with | ⟨0,_⟩ => rfl)
  rw [h, v3_eq]

/-- The vector of ones over the edges. -/
theorem v4_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) : val_main_v4 (F := Ideal) (ix1 e) = o32 := by
  rw [val_main_v4_apply, val_main_cst_apply]; rfl

/-- The vector of zeros over the nodes. -/
theorem v5_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) : val_main_v5 (F := Ideal) (ix1 i) = z32 := by
  rw [val_main_v5_apply, val_main_cst_0_apply]; rfl

/-- The vector of ones over the nodes. -/
theorem v8_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) : val_main_v8 (F := Ideal) (ix1 i) = o32 := by
  rw [val_main_v8_apply, val_main_cst_1_apply]; rfl

/-- The degree of node `i`. -/
theorem v9_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v9 (F := Ideal) x1 (ix1 i) = deg (fun e => x1 (ix2 (1 : Fin 2) e)) i := by
  rw [val_main_v9_apply, v8_eq x0 x1 x2 x3 x4 x5]
  unfold val_main_v7
  rw [scat_vec]
  simp only [v6_eq x0 x1 x2 x3 x4 x5, v4_eq x0 x1 x2 x3 x4 x5, v5_eq x0 x1 x2 x3 x4 x5]
  rfl

/-- The inverse square root of the degree of node `i`. -/
theorem v10_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v10 (F := Ideal) x1 (ix1 i) = dinv (fun e => x1 (ix2 (1 : Fin 2) e)) i := by
  rw [val_main_v10_apply, v9_eq x0 x1 x2 x3 x4 x5, Ideal.hostUnary_rsqrt_def]; rfl

/-- One over the degree of node `i`. -/
theorem v41_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v41 (F := Ideal) x1 (ix1 i) = Ideal.div o32 (deg (fun e => x1 (ix2 (1 : Fin 2) e)) i) := by
  rw [val_main_v41_apply, val_main_v40_apply, val_main_cst_8_apply, v9_eq x0 x1 x2 x3 x4 x5, Ideal.hostDivf_def, Ideal.ofBits_def]

/-- The same, spread over the channels. -/
theorem v43_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v43 (F := Ideal) x1 (ix2 i c) = Ideal.div o32 (deg (fun e => x1 (ix2 (1 : Fin 2) e)) i) := by
  rw [val_main_v43_apply, val_main_v42_apply]
  have h : idx_main_v42 (idx_main_v43 (ix2 i c)) = ix1 i := funext fun a => Fin.ext (by match a with | ⟨0,_⟩ => rfl)
  rw [h, v41_eq x0 x1 x2 x3 x4 x5]

/-- The inverse square root of the degree at the source node of edge `e`. -/
theorem v18_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v18 (F := Ideal) x1 (ix1 e) = dinv (fun e => x1 (ix2 (1 : Fin 2) e)) (nodeOf (x1 (ix2 (0 : Fin 2) e))) := by
  unfold val_main_v18
  rw [gath_vec, v17_eq x0 x1 x2 x3 x4 x5, v10_eq x0 x1 x2 x3 x4 x5]
  rfl

/-- The inverse square root of the degree at the destination node of edge `e`. -/
theorem v25_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v25 (F := Ideal) x1 (ix1 e) = dinv (fun e => x1 (ix2 (1 : Fin 2) e)) (nodeOf (x1 (ix2 (1 : Fin 2) e))) := by
  unfold val_main_v25
  rw [gath_vec, v24_eq x0 x1 x2 x3 x4 x5, v10_eq x0 x1 x2 x3 x4 x5]
  rfl

/-- The coefficient of edge `e`. -/
theorem v26_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v26 (F := Ideal) x1 (ix1 e) = dinv (fun e => x1 (ix2 (1 : Fin 2) e)) (nodeOf (x1 (ix2 (0 : Fin 2) e))) * dinv (fun e => x1 (ix2 (1 : Fin 2) e)) (nodeOf (x1 (ix2 (1 : Fin 2) e))) := by
  rw [val_main_v26_apply, v18_eq x0 x1 x2 x3 x4 x5, v25_eq x0 x1 x2 x3 x4 x5, Ideal.mulf_def]

/-- The same, spread over the channels. -/
theorem v35_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 256) :
    val_main_v35 (F := Ideal) x1 (ix2 e c) = dinv (fun e => x1 (ix2 (1 : Fin 2) e)) (nodeOf (x1 (ix2 (0 : Fin 2) e))) * dinv (fun e => x1 (ix2 (1 : Fin 2) e)) (nodeOf (x1 (ix2 (1 : Fin 2) e))) := by
  rw [val_main_v35_apply, val_main_v34_apply]
  have h : idx_main_v34 (idx_main_v35 (ix2 e c)) = ix1 e := funext fun a => Fin.ext (by match a with | ⟨0,_⟩ => rfl)
  rw [h, v26_eq x0 x1 x2 x3 x4 x5]

/-- The dense projection at node `i`, channel `c`. -/
theorem v11_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v11 (F := Ideal) x0 x2 (ix2 i c) = lin (fun i k => x0 (ix2 i k)) (fun k c => x2 (ix2 k c)) i c := by
  rw [val_main_v11_apply]
  unfold lin
  refine Finset.sum_congr rfl (fun k _ => ?_)
  have hl : lidx_main_v11 (ix2 i c) k = ix2 i k := funext fun a => Fin.ext (by match a with | ⟨0,_⟩ => rfl | ⟨1,_⟩ => rfl)
  have hr : ridx_main_v11 (ix2 i c) k = ix2 k c := funext fun a => Fin.ext (by match a with | ⟨0,_⟩ => rfl | ⟨1,_⟩ => rfl)
  rw [hl, hr]

/-- The projected row of the source node of edge `e`. -/
theorem v33_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 256) :
    val_main_v33 (F := Ideal) x0 x1 x2 (ix2 e c) = lin (fun i k => x0 (ix2 i k)) (fun k c => x2 (ix2 k c)) (nodeOf (x1 (ix2 (0 : Fin 2) e))) c := by
  unfold val_main_v33
  rw [gath_rows256, v32_eq x0 x1 x2 x3 x4 x5, v11_eq x0 x1 x2 x3 x4 x5]
  rfl

/-- The update carried by edge `e`. -/
theorem v36_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 256) :
    val_main_v36 (F := Ideal) x0 x1 x2 (ix2 e c)
      = lin (fun i k => x0 (ix2 i k)) (fun k c => x2 (ix2 k c)) (nodeOf (x1 (ix2 (0 : Fin 2) e))) c * (dinv (fun e => x1 (ix2 (1 : Fin 2) e)) (nodeOf (x1 (ix2 (0 : Fin 2) e))) * dinv (fun e => x1 (ix2 (1 : Fin 2) e)) (nodeOf (x1 (ix2 (1 : Fin 2) e)))) := by
  rw [val_main_v36_apply, v33_eq x0 x1 x2 x3 x4 x5, v35_eq x0 x1 x2 x3 x4 x5, Ideal.mulf_def]

/-- The array of zeros the updates are accumulated into. -/
theorem v37_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) : val_main_v37 (F := Ideal) (ix2 i c) = z32 := by
  rw [val_main_v37_apply, val_main_cst_7_apply]; rfl

/-- The accumulated updates at node `i`, channel `c`. -/
theorem v39_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v39 (F := Ideal) x0 x1 x2 (ix2 i c)
      = z32 + ∑ e ∈ Finset.univ.filter (fun e : Fin 800000 => Lands (x1 (ix2 (1 : Fin 2) e)) i),
          lin (fun i k => x0 (ix2 i k)) (fun k c => x2 (ix2 k c)) (nodeOf (x1 (ix2 (0 : Fin 2) e))) c * (dinv (fun e => x1 (ix2 (1 : Fin 2) e)) (nodeOf (x1 (ix2 (0 : Fin 2) e))) * dinv (fun e => x1 (ix2 (1 : Fin 2) e)) (nodeOf (x1 (ix2 (1 : Fin 2) e)))) := by
  unfold val_main_v39
  rw [scat_rows256]
  simp only [v38_eq x0 x1 x2 x3 x4 x5, v36_eq x0 x1 x2 x3 x4 x5, v37_eq x0 x1 x2 x3 x4 x5]

/-- The self-loop term at node `i`, channel `c`. -/
theorem v44_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v44 (F := Ideal) x0 x1 x2 (ix2 i c) = lin (fun i k => x0 (ix2 i k)) (fun k c => x2 (ix2 k c)) i c * Ideal.div o32 (deg (fun e => x1 (ix2 (1 : Fin 2) e)) i) := by
  rw [val_main_v44_apply, v11_eq x0 x1 x2 x3 x4 x5, v43_eq x0 x1 x2 x3 x4 x5, Ideal.mulf_def]

/-- The bias, spread over the nodes. -/
theorem v47_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v47 (F := Ideal) x3 (ix2 i c) = x3 (ix1 c) := by
  rw [val_main_v47_apply, val_main_v46_apply]
  have h : idx_main_v46 (idx_main_v47 (ix2 i c)) = ix1 c := funext fun a => Fin.ext (by match a with | ⟨0,_⟩ => rfl)
  rw [h]

/-- The layer's output at node `i`, channel `c`. -/
theorem v48_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v48 (F := Ideal) x0 x1 x2 x3 (ix2 i c)
      = layerR (fun e => x1 (ix2 (0 : Fin 2) e)) (fun e => x1 (ix2 (1 : Fin 2) e)) (fun i k => x0 (ix2 i k)) (fun k c => x2 (ix2 k c)) (fun c => x3 (ix1 c)) i c := by
  rw [val_main_v48_apply, val_main_v45_apply, v39_eq x0 x1 x2 x3 x4 x5, v44_eq x0 x1 x2 x3 x4 x5, v47_eq x0 x1 x2 x3 x4 x5]
  simp only [Ideal.addf_def]
  rfl

/-- The rectified first layer at node `i`, channel `c`. -/
theorem v49_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 256) :
    val_main_v49 (F := Ideal) x0 x1 x2 x3 (ix2 i c)
      = max (layerR (fun e => x1 (ix2 (0 : Fin 2) e)) (fun e => x1 (ix2 (1 : Fin 2) e)) (fun i k => x0 (ix2 i k)) (fun k c => x2 (ix2 k c)) (fun c => x3 (ix1 c)) i c) z32 := by
  rw [val_main_v49_apply, v48_eq x0 x1 x2 x3 x4 x5, val_main_call0_v0_apply, val_main_call0_cst_apply, Ideal.maximumf_def,
    Ideal.ofBits_def]

/-! ## The second layer -/

/-- The wrapped source word of edge `e`. -/
theorem v62_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v62 (F := Ideal) x1 (ix1 e) = wrapW (x1 (ix2 (0 : Fin 2) e)) := by
  rw [val_main_v62_apply, val_main_v59_apply, val_main_v61_apply, val_main_v58_apply, val_main_v60_apply,
    val_main_c_12_apply, val_main_c_13_apply, v1_eq]
  rfl

/-- The column of wrapped source words, as start indices. -/
theorem v63_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v63 (F := Ideal) x1 (ix2 e (0 : Fin 1)) = wrapW (x1 (ix2 (0 : Fin 2) e)) := by
  rw [val_main_v63_apply]
  have h : idx_main_v63 (ix2 e (0 : Fin 1)) = ix1 e := funext fun a => Fin.ext (by match a with | ⟨0,_⟩ => rfl)
  rw [h, v62_eq x0 x1 x2 x3 x4 x5]

/-- The wrapped destination word of edge `e`. -/
theorem v69_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v69 (F := Ideal) x1 (ix1 e) = wrapW (x1 (ix2 (1 : Fin 2) e)) := by
  rw [val_main_v69_apply, val_main_v66_apply, val_main_v68_apply, val_main_v65_apply, val_main_v67_apply,
    val_main_c_14_apply, val_main_c_15_apply, v3_eq]
  rfl

/-- The column of wrapped destination words, as start indices. -/
theorem v70_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v70 (F := Ideal) x1 (ix2 e (0 : Fin 1)) = wrapW (x1 (ix2 (1 : Fin 2) e)) := by
  rw [val_main_v70_apply]
  have h : idx_main_v70 (ix2 e (0 : Fin 1)) = ix1 e := funext fun a => Fin.ext (by match a with | ⟨0,_⟩ => rfl)
  rw [h, v69_eq x0 x1 x2 x3 x4 x5]

/-- The wrapped source word of edge `e`, as recomputed for the gather of rows. -/
theorem v77_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v77 (F := Ideal) x1 (ix1 e) = wrapW (x1 (ix2 (0 : Fin 2) e)) := by
  rw [val_main_v77_apply, val_main_v74_apply, val_main_v76_apply, val_main_v73_apply, val_main_v75_apply,
    val_main_c_16_apply, val_main_c_17_apply, v1_eq]
  rfl

/-- Its column, as start indices. -/
theorem v78_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v78 (F := Ideal) x1 (ix2 e (0 : Fin 1)) = wrapW (x1 (ix2 (0 : Fin 2) e)) := by
  rw [val_main_v78_apply]
  have h : idx_main_v78 (ix2 e (0 : Fin 1)) = ix1 e := funext fun a => Fin.ext (by match a with | ⟨0,_⟩ => rfl)
  rw [h, v77_eq x0 x1 x2 x3 x4 x5]

/-- The column of raw destination words, as scatter indices (degree count). -/
theorem v52_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v52 (F := Ideal) x1 (ix2 e (0 : Fin 1)) = (x1 (ix2 (1 : Fin 2) e)) := by
  rw [val_main_v52_apply]
  have h : idx_main_v52 (ix2 e (0 : Fin 1)) = ix1 e := funext fun a => Fin.ext (by match a with | ⟨0,_⟩ => rfl)
  rw [h, v3_eq]

/-- The column of raw destination words, as scatter indices (accumulation of rows). -/
theorem v84_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v84 (F := Ideal) x1 (ix2 e (0 : Fin 1)) = (x1 (ix2 (1 : Fin 2) e)) := by
  rw [val_main_v84_apply]
  have h : idx_main_v84 (ix2 e (0 : Fin 1)) = ix1 e := funext fun a => Fin.ext (by match a with | ⟨0,_⟩ => rfl)
  rw [h, v3_eq]

/-- The vector of ones over the edges. -/
theorem v50_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) : val_main_v50 (F := Ideal) (ix1 e) = o32 := by
  rw [val_main_v50_apply, val_main_cst_9_apply]; rfl

/-- The vector of zeros over the nodes. -/
theorem v51_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) : val_main_v51 (F := Ideal) (ix1 i) = z32 := by
  rw [val_main_v51_apply, val_main_cst_10_apply]; rfl

/-- The vector of ones over the nodes. -/
theorem v54_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) : val_main_v54 (F := Ideal) (ix1 i) = o32 := by
  rw [val_main_v54_apply, val_main_cst_11_apply]; rfl

/-- The degree of node `i`. -/
theorem v55_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v55 (F := Ideal) x1 (ix1 i) = deg (fun e => x1 (ix2 (1 : Fin 2) e)) i := by
  rw [val_main_v55_apply, v54_eq x0 x1 x2 x3 x4 x5]
  unfold val_main_v53
  rw [scat_vec]
  simp only [v52_eq x0 x1 x2 x3 x4 x5, v50_eq x0 x1 x2 x3 x4 x5, v51_eq x0 x1 x2 x3 x4 x5]
  rfl

/-- The inverse square root of the degree of node `i`. -/
theorem v56_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v56 (F := Ideal) x1 (ix1 i) = dinv (fun e => x1 (ix2 (1 : Fin 2) e)) i := by
  rw [val_main_v56_apply, v55_eq x0 x1 x2 x3 x4 x5, Ideal.hostUnary_rsqrt_def]; rfl

/-- One over the degree of node `i`. -/
theorem v87_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) :
    val_main_v87 (F := Ideal) x1 (ix1 i) = Ideal.div o32 (deg (fun e => x1 (ix2 (1 : Fin 2) e)) i) := by
  rw [val_main_v87_apply, val_main_v86_apply, val_main_cst_19_apply, v55_eq x0 x1 x2 x3 x4 x5, Ideal.hostDivf_def, Ideal.ofBits_def]

/-- The same, spread over the channels. -/
theorem v89_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v89 (F := Ideal) x1 (ix2 i c) = Ideal.div o32 (deg (fun e => x1 (ix2 (1 : Fin 2) e)) i) := by
  rw [val_main_v89_apply, val_main_v88_apply]
  have h : idx_main_v88 (idx_main_v89 (ix2 i c)) = ix1 i := funext fun a => Fin.ext (by match a with | ⟨0,_⟩ => rfl)
  rw [h, v87_eq x0 x1 x2 x3 x4 x5]

/-- The inverse square root of the degree at the source node of edge `e`. -/
theorem v64_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v64 (F := Ideal) x1 (ix1 e) = dinv (fun e => x1 (ix2 (1 : Fin 2) e)) (nodeOf (x1 (ix2 (0 : Fin 2) e))) := by
  unfold val_main_v64
  rw [gath_vec, v63_eq x0 x1 x2 x3 x4 x5, v56_eq x0 x1 x2 x3 x4 x5]
  rfl

/-- The inverse square root of the degree at the destination node of edge `e`. -/
theorem v71_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v71 (F := Ideal) x1 (ix1 e) = dinv (fun e => x1 (ix2 (1 : Fin 2) e)) (nodeOf (x1 (ix2 (1 : Fin 2) e))) := by
  unfold val_main_v71
  rw [gath_vec, v70_eq x0 x1 x2 x3 x4 x5, v56_eq x0 x1 x2 x3 x4 x5]
  rfl

/-- The coefficient of edge `e`. -/
theorem v72_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) :
    val_main_v72 (F := Ideal) x1 (ix1 e) = dinv (fun e => x1 (ix2 (1 : Fin 2) e)) (nodeOf (x1 (ix2 (0 : Fin 2) e))) * dinv (fun e => x1 (ix2 (1 : Fin 2) e)) (nodeOf (x1 (ix2 (1 : Fin 2) e))) := by
  rw [val_main_v72_apply, v64_eq x0 x1 x2 x3 x4 x5, v71_eq x0 x1 x2 x3 x4 x5, Ideal.mulf_def]

/-- The same, spread over the channels. -/
theorem v81_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 128) :
    val_main_v81 (F := Ideal) x1 (ix2 e c) = dinv (fun e => x1 (ix2 (1 : Fin 2) e)) (nodeOf (x1 (ix2 (0 : Fin 2) e))) * dinv (fun e => x1 (ix2 (1 : Fin 2) e)) (nodeOf (x1 (ix2 (1 : Fin 2) e))) := by
  rw [val_main_v81_apply, val_main_v80_apply]
  have h : idx_main_v80 (idx_main_v81 (ix2 e c)) = ix1 e := funext fun a => Fin.ext (by match a with | ⟨0,_⟩ => rfl)
  rw [h, v72_eq x0 x1 x2 x3 x4 x5]

/-- The dense projection at node `i`, channel `c`. -/
theorem v57_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v57 (F := Ideal) x0 x1 x2 x3 x4 (ix2 i c) = lin (fun i k => val_main_v49 (F := Ideal) x0 x1 x2 x3 (ix2 i k)) (fun k c => x4 (ix2 k c)) i c := by
  rw [val_main_v57_apply]
  unfold lin
  refine Finset.sum_congr rfl (fun k _ => ?_)
  have hl : lidx_main_v57 (ix2 i c) k = ix2 i k := funext fun a => Fin.ext (by match a with | ⟨0,_⟩ => rfl | ⟨1,_⟩ => rfl)
  have hr : ridx_main_v57 (ix2 i c) k = ix2 k c := funext fun a => Fin.ext (by match a with | ⟨0,_⟩ => rfl | ⟨1,_⟩ => rfl)
  rw [hl, hr]

/-- The projected row of the source node of edge `e`. -/
theorem v79_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 128) :
    val_main_v79 (F := Ideal) x0 x1 x2 x3 x4 (ix2 e c) = lin (fun i k => val_main_v49 (F := Ideal) x0 x1 x2 x3 (ix2 i k)) (fun k c => x4 (ix2 k c)) (nodeOf (x1 (ix2 (0 : Fin 2) e))) c := by
  unfold val_main_v79
  rw [gath_rows128, v78_eq x0 x1 x2 x3 x4 x5, v57_eq x0 x1 x2 x3 x4 x5]
  rfl

/-- The update carried by edge `e`. -/
theorem v82_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (e : Fin 800000) (c : Fin 128) :
    val_main_v82 (F := Ideal) x0 x1 x2 x3 x4 (ix2 e c)
      = lin (fun i k => val_main_v49 (F := Ideal) x0 x1 x2 x3 (ix2 i k)) (fun k c => x4 (ix2 k c)) (nodeOf (x1 (ix2 (0 : Fin 2) e))) c * (dinv (fun e => x1 (ix2 (1 : Fin 2) e)) (nodeOf (x1 (ix2 (0 : Fin 2) e))) * dinv (fun e => x1 (ix2 (1 : Fin 2) e)) (nodeOf (x1 (ix2 (1 : Fin 2) e)))) := by
  rw [val_main_v82_apply, v79_eq x0 x1 x2 x3 x4 x5, v81_eq x0 x1 x2 x3 x4 x5, Ideal.mulf_def]

/-- The array of zeros the updates are accumulated into. -/
theorem v83_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) : val_main_v83 (F := Ideal) (ix2 i c) = z32 := by
  rw [val_main_v83_apply, val_main_cst_18_apply]; rfl

/-- The accumulated updates at node `i`, channel `c`. -/
theorem v85_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v85 (F := Ideal) x0 x1 x2 x3 x4 (ix2 i c)
      = z32 + ∑ e ∈ Finset.univ.filter (fun e : Fin 800000 => Lands (x1 (ix2 (1 : Fin 2) e)) i),
          lin (fun i k => val_main_v49 (F := Ideal) x0 x1 x2 x3 (ix2 i k)) (fun k c => x4 (ix2 k c)) (nodeOf (x1 (ix2 (0 : Fin 2) e))) c * (dinv (fun e => x1 (ix2 (1 : Fin 2) e)) (nodeOf (x1 (ix2 (0 : Fin 2) e))) * dinv (fun e => x1 (ix2 (1 : Fin 2) e)) (nodeOf (x1 (ix2 (1 : Fin 2) e)))) := by
  unfold val_main_v85
  rw [scat_rows128]
  simp only [v84_eq x0 x1 x2 x3 x4 x5, v82_eq x0 x1 x2 x3 x4 x5, v83_eq x0 x1 x2 x3 x4 x5]

/-- The self-loop term at node `i`, channel `c`. -/
theorem v90_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v90 (F := Ideal) x0 x1 x2 x3 x4 (ix2 i c) = lin (fun i k => val_main_v49 (F := Ideal) x0 x1 x2 x3 (ix2 i k)) (fun k c => x4 (ix2 k c)) i c * Ideal.div o32 (deg (fun e => x1 (ix2 (1 : Fin 2) e)) i) := by
  rw [val_main_v90_apply, v57_eq x0 x1 x2 x3 x4 x5, v89_eq x0 x1 x2 x3 x4 x5, Ideal.mulf_def]

/-- The bias, spread over the nodes. -/
theorem v93_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v93 (F := Ideal) x5 (ix2 i c) = x5 (ix1 c) := by
  rw [val_main_v93_apply, val_main_v92_apply]
  have h : idx_main_v92 (idx_main_v93 (ix2 i c)) = ix1 c := funext fun a => Fin.ext (by match a with | ⟨0,_⟩ => rfl)
  rw [h]

/-- The layer's output at node `i`, channel `c`. -/
theorem v94_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (i : Fin 50000) (c : Fin 128) :
    val_main_v94 (F := Ideal) x0 x1 x2 x3 x4 x5 (ix2 i c)
      = layerR (fun e => x1 (ix2 (0 : Fin 2) e)) (fun e => x1 (ix2 (1 : Fin 2) e)) (fun i k => val_main_v49 (F := Ideal) x0 x1 x2 x3 (ix2 i k)) (fun k c => x4 (ix2 k c)) (fun c => x5 (ix1 c)) i c := by
  rw [val_main_v94_apply, val_main_v91_apply, v85_eq x0 x1 x2 x3 x4 x5, v90_eq x0 x1 x2 x3 x4 x5, v93_eq x0 x1 x2 x3 x4 x5]
  simp only [Ideal.addf_def]
  rfl

/-! ## The result -/

/-- The reference program's result is the two-layer network with the normalization per edge. -/
theorem ref_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    Cert.ReferenceIdeal.Read.val_main_v94 (F := Ideal) x0 x1 x2 x3 x4 x5 = Cert.Gcn.arrR x0 x1 x2 x3 x4 x5 := by
  funext j
  obtain ⟨i, c, rfl⟩ : ∃ (i : Fin 50000) (c : Fin 128), j = ix2 i c := ⟨j 0, j 1, eq_ix2 j⟩
  rw [v94_eq x0 x1 x2 x3 x4 x5]
  have h : (fun (i : Fin 50000) (k : Fin 256) => val_main_v49 (F := Ideal) x0 x1 x2 x3 (ix2 i k))
      = fun i k => max (layerR (fun e => x1 (ix2 (0 : Fin 2) e)) (fun e => x1 (ix2 (1 : Fin 2) e)) (fun i k => x0 (ix2 i k)) (fun k c => x2 (ix2 k c))
          (fun c => x3 (ix1 c)) i k) z32 :=
    funext fun i => funext fun k => v49_eq x0 x1 x2 x3 x4 x5 i k
  rw [h]
  rfl

end Cert.Gcn.Ref

end
-- ==== Proof.lean ====
/-
  A two-layer graph convolution on 50000 nodes and 800000 edges: the kernel program against its reference, over the
  extended reals.

  Both programs compute, per layer, out i c = Σ_{e → i} (h W)(src e) c · d (src e) · d i + (h W) i c / deg i + b c with
  deg i = 1 + in-degree of i and d = deg^(-1/2); negative edge words are wrapped once, gathers clamp, the scatter-add
  drops an edge whose destination word is not a node. The kernel program scales the projected rows by d at node level
  inside its matmul launch, gathers and adds them up on the host, and multiplies the aggregate by d i in a second launch,
  writing 1 / deg i as d i · d i; the reference multiplies each edge's row by d (src e) · d (dst e) and divides by deg i.
  An edge that lands on node i has destination node i, and on finite inputs every quantity is a real number with deg ≥ 1,
  so d i distributes over the finite sum and d i · d i = 1 / deg i: the two results agree entry by entry (`arr_eq`).

  The kernel program's run names its result as the fold of its seven segments (`RunValue.run`), which is `kernelOut` of
  the argument arrays (`W7_value`: host stretches by their operations, launches by what their blocks write back,
  `RegionFinals`) and, read index by index, the function `arrK` (`kernelOut_eq`); the reference's run ends at its
  operations' composed term, which read index by index is `arrR` (`ref_eq`). The ideal pass rewrote nothing, so the
  kernel's idealization is its own text. The three frames are the runs with the results dropped.
-/
import proofs.«152733_j37271726195316_2_alg».proof.Defs
import proofs.«152733_j37271726195316_2_alg».proof.Proof.Gen.Kernel
import proofs.«152733_j37271726195316_2_alg».proof.Proof.Gen.Kernel.Skeleton
import proofs.«152733_j37271726195316_2_alg».proof.Proof.Gen.Kernel.Launch
import proofs.«152733_j37271726195316_2_alg».proof.Proof.Gen.Kernel.Points
import proofs.«152733_j37271726195316_2_alg».proof.Proof.Gen.Kernel.Frame
import proofs.«152733_j37271726195316_2_alg».proof.Proof.Gen.KernelIdeal
import proofs.«152733_j37271726195316_2_alg».proof.Proof.Gen.KernelIdeal.Skeleton
import proofs.«152733_j37271726195316_2_alg».proof.Proof.Gen.KernelIdeal.Launch
import proofs.«152733_j37271726195316_2_alg».proof.Proof.Gen.KernelIdeal.Points
import proofs.«152733_j37271726195316_2_alg».proof.Proof.Gen.KernelIdeal.Frame
import proofs.«152733_j37271726195316_2_alg».proof.Proof.Gen.ReferenceIdeal
import proofs.«152733_j37271726195316_2_alg».proof.Proof.Gen.ReferenceIdeal.Run
import proofs.«152733_j37271726195316_2_alg».proof.Proof.Gen.ReferenceIdeal.Read
import proofs.«152733_j37271726195316_2_alg».proof.Proof.Gen.Pre_finite_inputs
import proofs.«152733_j37271726195316_2_alg».proof.Proof.KernelRun
import proofs.«152733_j37271726195316_2_alg».proof.Proof.KernelValue
import proofs.«152733_j37271726195316_2_alg».proof.Proof.KernelOutEq
import proofs.«152733_j37271726195316_2_alg».proof.Proof.RegionsMM
import proofs.«152733_j37271726195316_2_alg».proof.Proof.RegionsEpi
import proofs.«152733_j37271726195316_2_alg».proof.Proof.ArrEq
import proofs.«152733_j37271726195316_2_alg».proof.Proof.Finite
import proofs.«152733_j37271726195316_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- What the four launches leave in their output arrays. -/
theorem finals : Cert.Gcn.KV.RegionFinals :=
  ⟨Cert.Gcn.RegionsMM.final0_3, Cert.Gcn.RegionsMM.final0_4, Cert.Gcn.RegionsEpi.final1_4,
   Cert.Gcn.RegionsMM.final2_3, Cert.Gcn.RegionsMM.final2_4, Cert.Gcn.RegionsEpi.final3_4⟩

/-- Both programs end with the result array at the network's function of the argument arrays: node-level
    normalization for the kernel program, per-edge normalization for the reference, equal on finite inputs. -/
theorem algebraic : Cert.algebraic_KernelIdeal_ReferenceIdeal := by
  intro m ρ m' ρ' hpre hagree
  refine ⟨fun c => Cert.Gcn.arrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run (F := Ideal) m ρ)
    exact (Cert.Gcn.KV.W7_value m ρ c finals).trans (Cert.Gcn.KV.kernelOut_eq _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, Cert.Gcn.Ref.ref_eq, (hagree c).1, (hagree c).2.1, (hagree c).2.2.1,
      (hagree c).2.2.2.1, (hagree c).2.2.2.2.1, (hagree c).2.2.2.2.2]
    obtain ⟨h0, h2, h3, h4, h5⟩ := Cert.Gcn.finite_of_pre _ _ _ _ _ _ (hpre c)
    exact (Cert.Gcn.arr_eq _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
